-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1250000 : Shape := ⟨2, ![2, 1250000]⟩
abbrev S1250000 : Shape := ⟨1, ![1250000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x16 .f32) (main_arg8 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg7
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1250000 32) (main_arg2 : FVec F S1250000 .f32) (main_arg3 : FVec F S128x64 .f32) (main_arg4 : FVec F S64 .f32) (main_arg5 : FVec F S64x64 .f32) (main_arg6 : FVec F S64 .f32) (main_arg7 : FVec F S64x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1250000 .f32 := Host.absf main_arg2
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x1250000 : Shape := ⟨2, ![2, 1250000]⟩
abbrev S1250000 : Shape := ⟨1, ![1250000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1250000 : Shape := ⟨2, ![1, 1250000]⟩
abbrev S1350000 : Shape := ⟨1, ![1350000]⟩
abbrev S_ : Shape := ⟨0, ![]⟩
abbrev S1350000x1 : Shape := ⟨2, ![1350000, 1]⟩
abbrev S100000x64 : Shape := ⟨2, ![100000, 64]⟩
abbrev S10000x128 : Shape := ⟨2, ![10000, 128]⟩
abbrev S10000x64 : Shape := ⟨2, ![10000, 64]⟩
abbrev S1350000x64 : Shape := ⟨2, ![1350000, 64]⟩
abbrev S1x64 : Shape := ⟨2, ![1, 64]⟩
abbrev S100000x16 : Shape := ⟨2, ![100000, 16]⟩
abbrev S10000x16 : Shape := ⟨2, ![10000, 16]⟩
abbrev S1350000x16 : Shape := ⟨2, ![1350000, 16]⟩
abbrev S1x16 : Shape := ⟨2, ![1, 16]⟩

abbrev nBuf : Space → Nat
  | .hbm => 112
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1250000, .i32⟩
  | .hbm, ⟨2, _⟩ => ⟨S1250000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S100000, .i32⟩
  | .hbm, ⟨10, _⟩ => ⟨S1x1250000, .i32⟩
  | .hbm, ⟨11, _⟩ => ⟨S1250000, .i32⟩
  | .hbm, ⟨12, _⟩ => ⟨S1350000, .i32⟩
  | .hbm, ⟨13, _⟩ => ⟨S1x1250000, .i32⟩
  | .hbm, ⟨14, _⟩ => ⟨S1250000, .i32⟩
  | .hbm, ⟨15, _⟩ => ⟨S1350000, .i32⟩
  | .hbm, ⟨16, _⟩ => ⟨S_, .f32⟩
  | .hbm, ⟨17, _⟩ => ⟨S100000, .f32⟩
  | .hbm, ⟨18, _⟩ => ⟨S1350000, .f32⟩
  | .hbm, ⟨19, _⟩ => ⟨S_, .f32⟩
  | .hbm, ⟨20, _⟩ => ⟨S100000, .f32⟩
  | .hbm, ⟨21, _⟩ => ⟨S1350000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1350000, .i32⟩
  | .hbm, ⟨40, _⟩ => ⟨S1350000, .i1⟩
  | .hbm, ⟨41, _⟩ => ⟨S_, .i32⟩
  | .hbm, ⟨42, _⟩ => ⟨S1350000, .i32⟩
  | .hbm, ⟨43, _⟩ => ⟨S1350000, .i32⟩
  | .hbm, ⟨44, _⟩ => ⟨S1350000, .i32⟩
  | .hbm, ⟨45, _⟩ => ⟨S1350000x1, .i32⟩
  | .hbm, ⟨46, _⟩ => ⟨S1350000, .f32⟩
  | .hbm, ⟨47, _⟩ => ⟨S1350000, .f32⟩
  | .hbm, ⟨48, _⟩ => ⟨S_, .i32⟩
  | .hbm, ⟨49, _⟩ => ⟨S1350000, .i32⟩
  | .hbm, ⟨50, _⟩ => ⟨S1350000, .i1⟩
  | .hbm, ⟨51, _⟩ => ⟨S_, .i32⟩
  | .hbm, ⟨52, _⟩ => ⟨S1350000, .i32⟩
  | .hbm, ⟨53, _⟩ => ⟨S1350000, .i32⟩
  | .hbm, ⟨54, _⟩ => ⟨S1350000, .i32⟩
  | .hbm, ⟨55, _⟩ => ⟨S1350000x1, .i32⟩
  | .hbm, ⟨56, _⟩ => ⟨S1350000, .f32⟩
  | .hbm, ⟨57, _⟩ => ⟨S1350000, .f32⟩
  | .hbm, ⟨58, _⟩ => ⟨S100000x64, .f32⟩
  | .hbm, ⟨59, _⟩ => ⟨S_, .i32⟩
  | .hbm, ⟨60, _⟩ => ⟨S1350000, .i32⟩
  | .hbm, ⟨61, _⟩ => ⟨S1350000, .i1⟩
  | .hbm, ⟨62, _⟩ => ⟨S_, .i32⟩
  | .hbm, ⟨63, _⟩ => ⟨S1350000, .i32⟩
  | .hbm, ⟨64, _⟩ => ⟨S1350000, .i32⟩
  | .hbm, ⟨65, _⟩ => ⟨S1350000, .i32⟩
  | .hbm, ⟨66, _⟩ => ⟨S1350000x1, .i32⟩
  | .hbm, ⟨67, _⟩ => ⟨S1350000x64, .f32⟩
  | .hbm, ⟨68, _⟩ => ⟨S1350000x1, .f32⟩
  | .hbm, ⟨69, _⟩ => ⟨S1350000x64, .f32⟩
  | .hbm, ⟨70, _⟩ => ⟨S1350000x64, .f32⟩
  | .hbm, ⟨71, _⟩ => ⟨S_, .f32⟩
  | .hbm, ⟨72, _⟩ => ⟨S100000x64, .f32⟩
  | .hbm, ⟨73, _⟩ => ⟨S1350000x1, .i32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S1350000, .i32⟩
  | .hbm, ⟨79, _⟩ => ⟨S1350000, .i1⟩
  | .hbm, ⟨80, _⟩ => ⟨S_, .i32⟩
  | .hbm, ⟨81, _⟩ => ⟨S1350000, .i32⟩
  | .hbm, ⟨82, _⟩ => ⟨S1350000, .i32⟩
  | .hbm, ⟨83, _⟩ => ⟨S1350000, .i32⟩
  | .hbm, ⟨84, _⟩ => ⟨S1350000x1, .i32⟩
  | .hbm, ⟨85, _⟩ => ⟨S1350000x64, .f32⟩
  | .hbm, ⟨86, _⟩ => ⟨S1350000x1, .f32⟩
  | .hbm, ⟨87, _⟩ => ⟨S1350000x64, .f32⟩
  | .hbm, ⟨88, _⟩ => ⟨S1350000x64, .f32⟩
  | .hbm, ⟨89, _⟩ => ⟨S_, .f32⟩
  | .hbm, ⟨90, _⟩ => ⟨S100000x64, .f32⟩
  | .hbm, ⟨91, _⟩ => ⟨S1350000x1, .i32⟩
  | .hbm, ⟨92, _⟩ => ⟨S100000x64, .f32⟩
  | .hbm, ⟨93, _⟩ => ⟨S100000x64, .f32⟩
  | .hbm, ⟨94, _⟩ => ⟨S100000x16, .f32⟩
  | .hbm, ⟨95, _⟩ => ⟨S_, .i32⟩
  | .hbm, ⟨96, _⟩ => ⟨S1350000, .i32⟩
  | .hbm, ⟨97, _⟩ => ⟨S1350000, .i1⟩
  | .hbm, ⟨98, _⟩ => ⟨S_, .i32⟩
  | .hbm, ⟨99, _⟩ => ⟨S1350000, .i32⟩
  | .hbm, ⟨100, _⟩ => ⟨S1350000, .i32⟩
  | .hbm, ⟨101, _⟩ => ⟨S1350000, .i32⟩
  | .hbm, ⟨102, _⟩ => ⟨S1350000x1, .i32⟩
  | .hbm, ⟨103, _⟩ => ⟨S1350000x16, .f32⟩
  | .hbm, ⟨104, _⟩ => ⟨S1350000x1, .f32⟩
  | .hbm, ⟨105, _⟩ => ⟨S1350000x16, .f32⟩
  | .hbm, ⟨106, _⟩ => ⟨S1350000x16, .f32⟩
  | .hbm, ⟨107, _⟩ => ⟨S_, .f32⟩
  | .hbm, ⟨108, _⟩ => ⟨S100000x16, .f32⟩
  | .hbm, ⟨109, _⟩ => ⟨S1350000x1, .i32⟩
  | .hbm, ⟨110, _⟩ => ⟨S100000x16, .f32⟩
  | .hbm, ⟨111, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x16, .f32⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | .local _ .vmem, ⟨26, _⟩ => ⟨S10000x16, .f32⟩
  | .local _ .vmem, ⟨27, _⟩ => ⟨S16, .f32⟩
  | .local _ .vmem, ⟨28, _⟩ => ⟨S10000x16, .f32⟩
  | .local _ .vmem, ⟨29, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S100000 : S_.BroadcastsInDim S100000 (![] : Fin 0 → Fin S100000.rank)
  bcast_S1350000_S1350000x1_0 : S1350000.BroadcastsInDim S1350000x1 (![0] : Fin 1 → Fin S1350000x1.rank)
  bcast_S_S1350000 : S_.BroadcastsInDim S1350000 (![] : Fin 0 → Fin S1350000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1350000x1_S1350000x16_0_1 : S1350000x1.BroadcastsInDim S1350000x16 (![0, 1] : Fin 2 → Fin S1350000x16.rank)
  bcast_S_S100000x16 : S_.BroadcastsInDim S100000x16 (![] : Fin 0 → Fin S100000x16.rank)
  shapeCasts_S10000x16_S10000x16 : S10000x16.ShapeCasts S10000x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S10000x128_S128x64_S10000x64_1_0_0_1_n_n_wf : DotDims.WF S10000x128 S128x64 S10000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  gather_S100000x16_S1350000x1_S1350000x16_1_0_n_n_0_1_116_wf : GatherDims.WF S100000x16 S1350000x1 S1350000x16 [1] [0] [] [0] [] 1 ![1, 16]
  scatter_S100000x16_S1350000x1_S1350000x16_1_0_0_1_wf : ScatterDims.WF S100000x16 S1350000x1 S1350000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S100000x16.size a
  hwx4_2 : ∀ i : grid4.Coords, EltTy.bits .f32 = 32 ∨ (Rect.block (s := S100000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16.size a ≤ S16.size a
  hwx5_1 : ∀ i : grid5.Coords, EltTy.bits .f32 = 32 ∨ (Rect.block (s := S16) S16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S100000x16.size a
  hwx5_2 : ∀ i : grid5.Coords, EltTy.bits .f32 = 32 ∨ (Rect.block (s := S100000x16) S10000x16.size (cc5_transform_2 i) (hinb5_2 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1350000x1_S1350000x16_1_0_n_n_0_1_116 : GatherDims S100000x16 S1350000x1 S1350000x16 where
  offsetDims := [1]
  collapsedSliceDims := [0]
  operandBatchingDims := []
  startIndicesBatchingDims := []
  startIndexMap := [0]
  indexVectorDim := 1
  sliceSizes := ![1, 16]
  wf := gather_S100000x16_S1350000x1_S1350000x16_1_0_n_n_0_1_116_wf
def scatter_S100000x16_S1350000x1_S1350000x16_1_0_0_1 : ScatterDims S100000x16 S1350000x1 S1350000x16 where
  updateWindowDims := [1]
  insertedWindowDims := [0]
  scatterDimsToOperandDims := [0]
  indexVectorDim := 1
  wf := scatter_S100000x16_S1350000x1_S1350000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1250000 : Shape := ⟨2, ![2, 1250000]⟩
abbrev S1250000 : Shape := ⟨1, ![1250000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1250000 : Shape := ⟨2, ![1, 1250000]⟩
abbrev S1350000 : Shape := ⟨1, ![1350000]⟩
abbrev S_ : Shape := ⟨0, ![]⟩
abbrev S1350000x1 : Shape := ⟨2, ![1350000, 1]⟩
abbrev S100000x64 : Shape := ⟨2, ![100000, 64]⟩
abbrev S1350000x64 : Shape := ⟨2, ![1350000, 64]⟩
abbrev S1x64 : Shape := ⟨2, ![1, 64]⟩
abbrev S100000x16 : Shape := ⟨2, ![100000, 16]⟩
abbrev S1350000x16 : Shape := ⟨2, ![1350000, 16]⟩
abbrev S1x16 : Shape := ⟨2, ![1, 16]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1250000, .i32⟩
  | .hbm, ⟨2, _⟩ => ⟨S1250000, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S100000, .i32⟩
  | .hbm, ⟨10, _⟩ => ⟨S1x1250000, .i32⟩
  | .hbm, ⟨11, _⟩ => ⟨S1250000, .i32⟩
  | .hbm, ⟨12, _⟩ => ⟨S1350000, .i32⟩
  | .hbm, ⟨13, _⟩ => ⟨S1x1250000, .i32⟩
  | .hbm, ⟨14, _⟩ => ⟨S1250000, .i32⟩
  | .hbm, ⟨15, _⟩ => ⟨S1350000, .i32⟩
  | .hbm, ⟨16, _⟩ => ⟨S_, .f32⟩
  | .hbm, ⟨17, _⟩ => ⟨S100000, .f32⟩
  | .hbm, ⟨18, _⟩ => ⟨S1350000, .f32⟩
  | .hbm, ⟨19, _⟩ => ⟨S_, .f32⟩
  | .hbm, ⟨20, _⟩ => ⟨S100000, .f32⟩
  | .hbm, ⟨21, _⟩ => ⟨S1350000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1350000, .i32⟩
  | .hbm, ⟨40, _⟩ => ⟨S1350000, .i1⟩
  | .hbm, ⟨41, _⟩ => ⟨S_, .i32⟩
  | .hbm, ⟨42, _⟩ => ⟨S1350000, .i32⟩
  | .hbm, ⟨43, _⟩ => ⟨S1350000, .i32⟩
  | .hbm, ⟨44, _⟩ => ⟨S1350000, .i32⟩
  | .hbm, ⟨45, _⟩ => ⟨S1350000x1, .i32⟩
  | .hbm, ⟨46, _⟩ => ⟨S1350000, .f32⟩
  | .hbm, ⟨47, _⟩ => ⟨S1350000, .f32⟩
  | .hbm, ⟨48, _⟩ => ⟨S_, .i32⟩
  | .hbm, ⟨49, _⟩ => ⟨S1350000, .i32⟩
  | .hbm, ⟨50, _⟩ => ⟨S1350000, .i1⟩
  | .hbm, ⟨51, _⟩ => ⟨S_, .i32⟩
  | .hbm, ⟨52, _⟩ => ⟨S1350000, .i32⟩
  | .hbm, ⟨53, _⟩ => ⟨S1350000, .i32⟩
  | .hbm, ⟨54, _⟩ => ⟨S1350000, .i32⟩
  | .hbm, ⟨55, _⟩ => ⟨S1350000x1, .i32⟩
  | .hbm, ⟨56, _⟩ => ⟨S1350000, .f32⟩
  | .hbm, ⟨57, _⟩ => ⟨S1350000, .f32⟩
  | .hbm, ⟨58, _⟩ => ⟨S100000x64, .f32⟩
  | .hbm, ⟨59, _⟩ => ⟨S_, .i32⟩
  | .hbm, ⟨60, _⟩ => ⟨S1350000, .i32⟩
  | .hbm, ⟨61, _⟩ => ⟨S1350000, .i1⟩
  | .hbm, ⟨62, _⟩ => ⟨S_, .i32⟩
  | .hbm, ⟨63, _⟩ => ⟨S1350000, .i32⟩
  | .hbm, ⟨64, _⟩ => ⟨S1350000, .i32⟩
  | .hbm, ⟨65, _⟩ => ⟨S1350000, .i32⟩
  | .hbm, ⟨66, _⟩ => ⟨S1350000x1, .i32⟩
  | .hbm, ⟨67, _⟩ => ⟨S1350000x64, .f32⟩
  | .hbm, ⟨68, _⟩ => ⟨S1350000x1, .f32⟩
  | .hbm, ⟨69, _⟩ => ⟨S1350000x64, .f32⟩
  | .hbm, ⟨70, _⟩ => ⟨S1350000x64, .f32⟩
  | .hbm, ⟨71, _⟩ => ⟨S_, .f32⟩
  | .hbm, ⟨72, _⟩ => ⟨S100000x64, .f32⟩
  | .hbm, ⟨73, _⟩ => ⟨S1350000x1, .i32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .i32⟩
  | .hbm, ⟨83, _⟩ => ⟨S1350000, .i32⟩
  | .hbm, ⟨84, _⟩ => ⟨S1350000, .i1⟩
  | .hbm, ⟨85, _⟩ => ⟨S_, .i32⟩
  | .hbm, ⟨86, _⟩ => ⟨S1350000, .i32⟩
  | .hbm, ⟨87, _⟩ => ⟨S1350000, .i32⟩
  | .hbm, ⟨88, _⟩ => ⟨S1350000, .i32⟩
  | .hbm, ⟨89, _⟩ => ⟨S1350000x1, .i32⟩
  | .hbm, ⟨90, _⟩ => ⟨S1350000x64, .f32⟩
  | .hbm, ⟨91, _⟩ => ⟨S1350000x1, .f32⟩
  | .hbm, ⟨92, _⟩ => ⟨S1350000x64, .f32⟩
  | .hbm, ⟨93, _⟩ => ⟨S1350000x64, .f32⟩
  | .hbm, ⟨94, _⟩ => ⟨S_, .f32⟩
  | .hbm, ⟨95, _⟩ => ⟨S100000x64, .f32⟩
  | .hbm, ⟨96, _⟩ => ⟨S1350000x1, .i32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S100000x64, .f32⟩
  | .hbm, ⟨104, _⟩ => ⟨S100000x16, .f32⟩
  | .hbm, ⟨105, _⟩ => ⟨S_, .i32⟩
  | .hbm, ⟨106, _⟩ => ⟨S1350000, .i32⟩
  | .hbm, ⟨107, _⟩ => ⟨S1350000, .i1⟩
  | .hbm, ⟨108, _⟩ => ⟨S_, .i32⟩
  | .hbm, ⟨109, _⟩ => ⟨S1350000, .i32⟩
  | .hbm, ⟨110, _⟩ => ⟨S1350000, .i32⟩
  | .hbm, ⟨111, _⟩ => ⟨S1350000, .i32⟩
  | .hbm, ⟨112, _⟩ => ⟨S1350000x1, .i32⟩
  | .hbm, ⟨113, _⟩ => ⟨S1350000x16, .f32⟩
  | .hbm, ⟨114, _⟩ => ⟨S1350000x1, .f32⟩
  | .hbm, ⟨115, _⟩ => ⟨S1350000x16, .f32⟩
  | .hbm, ⟨116, _⟩ => ⟨S1350000x16, .f32⟩
  | .hbm, ⟨117, _⟩ => ⟨S_, .f32⟩
  | .hbm, ⟨118, _⟩ => ⟨S100000x16, .f32⟩
  | .hbm, ⟨119, _⟩ => ⟨S1350000x1, .i32⟩
  | .hbm, ⟨120, _⟩ => ⟨S100000x16, .f32⟩
  | .hbm, ⟨121, _⟩ => ⟨S1x16, .f32⟩
  | .hbm, ⟨122, _⟩ => ⟨S100000x16, .f32⟩
  | .hbm, ⟨123, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call3_cst : Ref sig .tc := ⟨.hbm, 101, rfl⟩
abbrev main_call3_v0 : Ref sig .tc := ⟨.hbm, 102, rfl⟩
abbrev main_v70 : Ref sig .tc := ⟨.hbm, 103, rfl⟩
abbrev main_v71 : Ref sig .tc := ⟨.hbm, 104, rfl⟩
abbrev main_c_14 : Ref sig .tc := ⟨.hbm, 105, rfl⟩
abbrev main_v72 : Ref sig .tc := ⟨.hbm, 106, rfl⟩
abbrev main_v73 : Ref sig .tc := ⟨.hbm, 107, rfl⟩
abbrev main_c_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S100000 : S_.BroadcastsInDim S100000 (![] : Fin 0 → Fin S100000.rank)
  bcast_S1350000_S1350000x1_0 : S1350000.BroadcastsInDim S1350000x1 (![0] : Fin 1 → Fin S1350000x1.rank)
  bcast_S_S1350000 : S_.BroadcastsInDim S1350000 (![] : Fin 0 → Fin S1350000.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1350000x1_S1350000x16_0_1 : S1350000x1.BroadcastsInDim S1350000x16 (![0, 1] : Fin 2 → Fin S1350000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x128_S128x64_S100000x64_1_0_0_1_n_n_wf : DotDims.WF S100000x128 S128x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  gather_S100000x16_S1350000x1_S1350000x16_1_0_n_n_0_1_116_wf : GatherDims.WF S100000x16 S1350000x1 S1350000x16 [1] [0] [] [0] [] 1 ![1, 16]
  scatter_S100000x16_S1350000x1_S1350000x16_1_0_0_1_wf : ScatterDims.WF S100000x16 S1350000x1 S1350000x16 [1] [0] [0] 1

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1350000x1_S1350000x16_1_0_n_n_0_1_116 : GatherDims S100000x16 S1350000x1 S1350000x16 where
  offsetDims := [1]
  collapsedSliceDims := [0]
  operandBatchingDims := []
  startIndicesBatchingDims := []
  startIndexMap := [0]
  indexVectorDim := 1
  sliceSizes := ![1, 16]
  wf := gather_S100000x16_S1350000x1_S1350000x16_1_0_n_n_0_1_116_wf
def scatter_S100000x16_S1350000x1_S1350000x16_1_0_0_1 : ScatterDims S100000x16 S1350000x1 S1350000x16 where
  updateWindowDims := [1]
  insertedWindowDims := [0]
  scatterDimsToOperandDims := [0]
  indexVectorDim := 1
  wf := scatter_S100000x16_S1350000x1_S1350000x16_1_0_0_1_wf

class Facts : Prop extends Facts₀ where

variable [Facts]
-- ==== Proof.KernelRun.lean ====
/-
  The kernel's run with its result named. Every weakly fair execution of @main terminates without a fault; the final
  state holds, in every buffer that is not scoped to a region, the contents the fold of the fourteen segments leaves
  there. Read at the nine arguments this is the frame; read at the result buffer as well, it says the result array
  ends at the fold's value there, which Layers computes.
-/
import proofs.«175924_j19275813224530_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are solved by unification through plain definitions
set_option backward.isDefEq.respectTransparency.types false in
/-- From any memory with zero counters every weakly fair execution of @main terminates, nothing faulting; the result
    array ends at the fold's contents and the nine arguments as launched. -/
theorem run : θ_run defs (onTc (τ := τ) (main (F := F))) ⟨m, fun _ => 0, ρ⟩ (fun r => ∀ c : Dev nD,
      r.2.mem ((c.tc : Thread nD τ).loc main_v79) = W14 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v79 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.ValueRun

end
-- ==== Proof.Fold.lean ====
/-
  The buffer contents at the boundaries of @main's fourteen segments (five stretches of host operations, then the six
  regions with a stretch of host operations before each aggregation). Two kinds of fact are read off the fold here.
  First, what the opening host operations compute — the source and target node of every edge with the self loops
  appended, and the symmetric-normalisation coefficient of every edge — is, operation for operation, what the
  reference computes from the same two arguments. Second, a buffer that no later segment writes keeps its contents:
  each argument array reaches the region that reads it as launched, and the three edge arrays reach each of the three
  aggregations as the opening operations left them.
-/
import proofs.«175924_j19275813224530_1_alg».proof.Proof.Gen.KernelIdeal.Frame
import proofs.«175924_j19275813224530_1_alg».proof.Proof.Gen.ReferenceIdeal.Read
import Idealize.ShloMosaic.Lib.StableHlo.Run

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The opening host operations compute what the reference's do -/

/-- The source node of every edge, self loops appended. -/
theorem W5_v3 (c : Dev nD) : W5 m ρ c (Proc.devRef .tc main_v3)
    = Cert.ReferenceIdeal.Read.val_main_v3 (F := F) (m ((c : Thread nD τ).loc main_arg1)) := by
  after_results_simp
  rfl

/-- The target node of every edge, self loops appended. -/
theorem W5_v6 (c : Dev nD) : W5 m ρ c (Proc.devRef .tc main_v6)
    = Cert.ReferenceIdeal.Read.val_main_v6 (F := F) (m ((c : Thread nD τ).loc main_arg1)) := by
  after_results_simp
  rfl

/-- The coefficient of every edge: its weight times the inverse square roots of its two end nodes' weighted degrees. -/
theorem W5_v34 (c : Dev nD) : W5 m ρ c (Proc.devRef .tc main_v34)
    = Cert.ReferenceIdeal.Read.val_main_v34 (F := F) (m ((c : Thread nD τ).loc main_arg1)) (m ((c : Thread nD τ).loc main_arg2)) := by
  after_results_simp
  rfl

/-! ## Buffers no later segment writes -/

/-- No operation of a stretch of host operations writes the buffer: each operation writes one buffer, another one. -/
macro "kept_host" : tactic => `(tactic| (
  simp only [hostOps0, hostOps0_1, hostOps0_2, hostOps0_3, hostOps0_4, hostOps1, hostOps3, hostOps5, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The node features reach the first dense product as launched. -/
theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by kept_host))
    _ = W3 m ρ c (Proc.devRef .tc main_arg0) := StableHlo.after_of_forall_not_mem (b := Proc.devRef .tc main_arg0) _ _ (List.forall_iff_forall_mem.mp (by kept_host))
    _ = W2 m ρ c (Proc.devRef .tc main_arg0) := StableHlo.after_of_forall_not_mem (b := Proc.devRef .tc main_arg0) _ _ (List.forall_iff_forall_mem.mp (by kept_host))
    _ = W1 m ρ c (Proc.devRef .tc main_arg0) := StableHlo.after_of_forall_not_mem (b := Proc.devRef .tc main_arg0) _ _ (List.forall_iff_forall_mem.mp (by kept_host))
    _ = W0 m ρ c (Proc.devRef .tc main_arg0) := StableHlo.after_of_forall_not_mem (b := Proc.devRef .tc main_arg0) _ _ (List.forall_iff_forall_mem.mp (by kept_host))
    _ = m ((c : Thread nD τ).loc main_arg0) := rfl

/-- The first weight matrix reaches the first dense product as launched. -/
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by kept_host))
    _ = W3 m ρ c (Proc.devRef .tc main_arg3) := StableHlo.after_of_forall_not_mem (b := Proc.devRef .tc main_arg3) _ _ (List.forall_iff_forall_mem.mp (by kept_host))
    _ = W2 m ρ c (Proc.devRef .tc main_arg3) := StableHlo.after_of_forall_not_mem (b := Proc.devRef .tc main_arg3) _ _ (List.forall_iff_forall_mem.mp (by kept_host))
    _ = W1 m ρ c (Proc.devRef .tc main_arg3) := StableHlo.after_of_forall_not_mem (b := Proc.devRef .tc main_arg3) _ _ (List.forall_iff_forall_mem.mp (by kept_host))
    _ = W0 m ρ c (Proc.devRef .tc main_arg3) := StableHlo.after_of_forall_not_mem (b := Proc.devRef .tc main_arg3) _ _ (List.forall_iff_forall_mem.mp (by kept_host))
    _ = m ((c : Thread nD τ).loc main_arg3) := rfl

/-- The first bias reaches the first epilogue as launched. -/
theorem W7_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by kept_host))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by kept_host))
    _ = W3 m ρ c (Proc.devRef .tc main_arg4) := StableHlo.after_of_forall_not_mem (b := Proc.devRef .tc main_arg4) _ _ (List.forall_iff_forall_mem.mp (by kept_host))
    _ = W2 m ρ c (Proc.devRef .tc main_arg4) := StableHlo.after_of_forall_not_mem (b := Proc.devRef .tc main_arg4) _ _ (List.forall_iff_forall_mem.mp (by kept_host))
    _ = W1 m ρ c (Proc.devRef .tc main_arg4) := StableHlo.after_of_forall_not_mem (b := Proc.devRef .tc main_arg4) _ _ (List.forall_iff_forall_mem.mp (by kept_host))
    _ = W0 m ρ c (Proc.devRef .tc main_arg4) := StableHlo.after_of_forall_not_mem (b := Proc.devRef .tc main_arg4) _ _ (List.forall_iff_forall_mem.mp (by kept_host))
    _ = m ((c : Thread nD τ).loc main_arg4) := rfl

/-- The second weight matrix reaches the second dense product as launched. -/
theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by kept_host))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by kept_host))
    _ = W3 m ρ c (Proc.devRef .tc main_arg5) := StableHlo.after_of_forall_not_mem (b := Proc.devRef .tc main_arg5) _ _ (List.forall_iff_forall_mem.mp (by kept_host))
    _ = W2 m ρ c (Proc.devRef .tc main_arg5) := StableHlo.after_of_forall_not_mem (b := Proc.devRef .tc main_arg5) _ _ (List.forall_iff_forall_mem.mp (by kept_host))
    _ = W1 m ρ c (Proc.devRef .tc main_arg5) := StableHlo.after_of_forall_not_mem (b := Proc.devRef .tc main_arg5) _ _ (List.forall_iff_forall_mem.mp (by kept_host))
    _ = W0 m ρ c (Proc.devRef .tc main_arg5) := StableHlo.after_of_forall_not_mem (b := Proc.devRef .tc main_arg5) _ _ (List.forall_iff_forall_mem.mp (by kept_host))
    _ = m ((c : Thread nD τ).loc main_arg5) := rfl

/-- The second bias reaches the second epilogue as launched. -/
theorem W10_arg6 (c : Dev nD) : W10 m ρ c (Proc.devRef .tc main_arg6) = m ((c : Thread nD τ).loc main_arg6) :=
  calc W10 m ρ c (Proc.devRef .tc main_arg6)
    _ = W9 m ρ c (Proc.devRef .tc main_arg6) := StableHlo.after_of_forall_not_mem (b := Proc.devRef .tc main_arg6) _ _ (List.forall_iff_forall_mem.mp (by kept_host))
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by kept_host))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by kept_host))
    _ = W3 m ρ c (Proc.devRef .tc main_arg6) := StableHlo.after_of_forall_not_mem (b := Proc.devRef .tc main_arg6) _ _ (List.forall_iff_forall_mem.mp (by kept_host))
    _ = W2 m ρ c (Proc.devRef .tc main_arg6) := StableHlo.after_of_forall_not_mem (b := Proc.devRef .tc main_arg6) _ _ (List.forall_iff_forall_mem.mp (by kept_host))
    _ = W1 m ρ c (Proc.devRef .tc main_arg6) := StableHlo.after_of_forall_not_mem (b := Proc.devRef .tc main_arg6) _ _ (List.forall_iff_forall_mem.mp (by kept_host))
    _ = W0 m ρ c (Proc.devRef .tc main_arg6) := StableHlo.after_of_forall_not_mem (b := Proc.devRef .tc main_arg6) _ _ (List.forall_iff_forall_mem.mp (by kept_host))
    _ = m ((c : Thread nD τ).loc main_arg6) := rfl

/-- The third weight matrix reaches the third dense product as launched. -/
theorem W11_arg7 (c : Dev nD) : W11 m ρ c (Proc.devRef .tc main_arg7) = m ((c : Thread nD τ).loc main_arg7) :=
  calc W11 m ρ c (Proc.devRef .tc main_arg7)
    _ = W10 m ρ c (Proc.devRef .tc main_arg7) := W11_of_ne m ρ c main_arg7 (by decide)
    _ = W9 m ρ c (Proc.devRef .tc main_arg7) := StableHlo.after_of_forall_not_mem (b := Proc.devRef .tc main_arg7) _ _ (List.forall_iff_forall_mem.mp (by kept_host))
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by kept_host))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by kept_host))
    _ = W3 m ρ c (Proc.devRef .tc main_arg7) := StableHlo.after_of_forall_not_mem (b := Proc.devRef .tc main_arg7) _ _ (List.forall_iff_forall_mem.mp (by kept_host))
    _ = W2 m ρ c (Proc.devRef .tc main_arg7) := StableHlo.after_of_forall_not_mem (b := Proc.devRef .tc main_arg7) _ _ (List.forall_iff_forall_mem.mp (by kept_host))
    _ = W1 m ρ c (Proc.devRef .tc main_arg7) := StableHlo.after_of_forall_not_mem (b := Proc.devRef .tc main_arg7) _ _ (List.forall_iff_forall_mem.mp (by kept_host))
    _ = W0 m ρ c (Proc.devRef .tc main_arg7) := StableHlo.after_of_forall_not_mem (b := Proc.devRef .tc main_arg7) _ _ (List.forall_iff_forall_mem.mp (by kept_host))
    _ = m ((c : Thread nD τ).loc main_arg7) := rfl

/-- The third bias reaches the third epilogue as launched. -/
theorem W13_arg8 (c : Dev nD) : W13 m ρ c (Proc.devRef .tc main_arg8) = m ((c : Thread nD τ).loc main_arg8) :=
  calc W13 m ρ c (Proc.devRef .tc main_arg8)
    _ = W12 m ρ c (Proc.devRef .tc main_arg8) := StableHlo.after_of_forall_not_mem (b := Proc.devRef .tc main_arg8) _ _ (List.forall_iff_forall_mem.mp (by kept_host))
    _ = W11 m ρ c (Proc.devRef .tc main_arg8) := W12_of_ne m ρ c main_arg8 (by decide)
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by kept_host))
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by kept_host))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by kept_host))
    _ = W3 m ρ c (Proc.devRef .tc main_arg8) := StableHlo.after_of_forall_not_mem (b := Proc.devRef .tc main_arg8) _ _ (List.forall_iff_forall_mem.mp (by kept_host))
    _ = W2 m ρ c (Proc.devRef .tc main_arg8) := StableHlo.after_of_forall_not_mem (b := Proc.devRef .tc main_arg8) _ _ (List.forall_iff_forall_mem.mp (by kept_host))
    _ = W1 m ρ c (Proc.devRef .tc main_arg8) := StableHlo.after_of_forall_not_mem (b := Proc.devRef .tc main_arg8) _ _ (List.forall_iff_forall_mem.mp (by kept_host))
    _ = W0 m ρ c (Proc.devRef .tc main_arg8) := StableHlo.after_of_forall_not_mem (b := Proc.devRef .tc main_arg8) _ _ (List.forall_iff_forall_mem.mp (by kept_host))
    _ = m ((c : Thread nD τ).loc main_arg8) := rfl

/-- No region and no later host operation writes the source nodes: they are, at the first aggregation, what the opening host operations left. -/
theorem W6_v3 (c : Dev nD) : W6 m ρ c (Proc.devRef .tc main_v3) = W5 m ρ c (Proc.devRef .tc main_v3) :=
  calc W6 m ρ c (Proc.devRef .tc main_v3)
    _ = W5 m ρ c (Proc.devRef .tc main_v3) := W6_of_ne m ρ c main_v3 (by decide)

/-- The same at the second aggregation. -/
theorem W9_v3 (c : Dev nD) : W9 m ρ c (Proc.devRef .tc main_v3) = W5 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by kept_host))
    _ = W5 m ρ c (Proc.devRef .tc main_v3) := W6_of_ne m ρ c main_v3 (by decide)

/-- The same at the third aggregation. -/
theorem W12_v3 (c : Dev nD) : W12 m ρ c (Proc.devRef .tc main_v3) = W5 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by kept_host))
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by kept_host))
    _ = W5 m ρ c (Proc.devRef .tc main_v3) := W6_of_ne m ρ c main_v3 (by decide)

/-- No region and no later host operation writes the target nodes: they are, at the first aggregation, what the opening host operations left. -/
theorem W6_v6 (c : Dev nD) : W6 m ρ c (Proc.devRef .tc main_v6) = W5 m ρ c (Proc.devRef .tc main_v6) :=
  calc W6 m ρ c (Proc.devRef .tc main_v6)
    _ = W5 m ρ c (Proc.devRef .tc main_v6) := W6_of_ne m ρ c main_v6 (by decide)

/-- The same at the second aggregation. -/
theorem W9_v6 (c : Dev nD) : W9 m ρ c (Proc.devRef .tc main_v6) = W5 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by kept_host))
    _ = W5 m ρ c (Proc.devRef .tc main_v6) := W6_of_ne m ρ c main_v6 (by decide)

/-- The same at the third aggregation. -/
theorem W12_v6 (c : Dev nD) : W12 m ρ c (Proc.devRef .tc main_v6) = W5 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := W11_of_ne m ρ c main_v6 (by decide)
    _ = W9 m ρ c (Proc.devRef .tc main_v6) := StableHlo.after_of_forall_not_mem (b := Proc.devRef .tc main_v6) _ _ (List.forall_iff_forall_mem.mp (by kept_host))
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by kept_host))
    _ = W5 m ρ c (Proc.devRef .tc main_v6) := W6_of_ne m ρ c main_v6 (by decide)

/-- No region and no later host operation writes the edge coefficients: they are, at the first aggregation, what the opening host operations left. -/
theorem W6_v34 (c : Dev nD) : W6 m ρ c (Proc.devRef .tc main_v34) = W5 m ρ c (Proc.devRef .tc main_v34) :=
  calc W6 m ρ c (Proc.devRef .tc main_v34)
    _ = W5 m ρ c (Proc.devRef .tc main_v34) := W6_of_ne m ρ c main_v34 (by decide)

/-- The same at the second aggregation. -/
theorem W9_v34 (c : Dev nD) : W9 m ρ c (Proc.devRef .tc main_v34) = W5 m ρ c (Proc.devRef .tc main_v34) :=
  calc W9 m ρ c (Proc.devRef .tc main_v34)
    _ = W8 m ρ c (Proc.devRef .tc main_v34) := W9_of_ne m ρ c main_v34 (by decide)
    _ = W7 m ρ c (Proc.devRef .tc main_v34) := W8_of_ne m ρ c main_v34 (by decide)
    _ = W6 m ρ c (Proc.devRef .tc main_v34) := StableHlo.after_of_forall_not_mem (b := Proc.devRef .tc main_v34) _ _ (List.forall_iff_forall_mem.mp (by kept_host))
    _ = W5 m ρ c (Proc.devRef .tc main_v34) := W6_of_ne m ρ c main_v34 (by decide)

/-- The same at the third aggregation. -/
theorem W12_v34 (c : Dev nD) : W12 m ρ c (Proc.devRef .tc main_v34) = W5 m ρ c (Proc.devRef .tc main_v34) :=
  calc W12 m ρ c (Proc.devRef .tc main_v34)
    _ = W11 m ρ c (Proc.devRef .tc main_v34) := W12_of_ne m ρ c main_v34 (by decide)
    _ = W10 m ρ c (Proc.devRef .tc main_v34) := W11_of_ne m ρ c main_v34 (by decide)
    _ = W9 m ρ c (Proc.devRef .tc main_v34) := StableHlo.after_of_forall_not_mem (b := Proc.devRef .tc main_v34) _ _ (List.forall_iff_forall_mem.mp (by kept_host))
    _ = W8 m ρ c (Proc.devRef .tc main_v34) := W9_of_ne m ρ c main_v34 (by decide)
    _ = W7 m ρ c (Proc.devRef .tc main_v34) := W8_of_ne m ρ c main_v34 (by decide)
    _ = W6 m ρ c (Proc.devRef .tc main_v34) := StableHlo.after_of_forall_not_mem (b := Proc.devRef .tc main_v34) _ _ (List.forall_iff_forall_mem.mp (by kept_host))
    _ = W5 m ρ c (Proc.devRef .tc main_v34) := W6_of_ne m ρ c main_v34 (by decide)

end Cert.KernelIdeal.Fold

end
-- ==== Proof.Dense1.lean ====
/-
  Layer 1's dense product. The region runs over ten grid points; point t loads rows 10000·t … 10000·t + 9999 of the
  [100000, 128] left factor and the whole [128, 64] right factor, rounds both to bf16 (the identity on the extended
  reals), multiplies them into a zero accumulator and writes the [10000, 64] result back as the same rows of the output.
  Entry (r, j) of a block's product is the sum over k of left (r, k) · right (k, j), which is entry (10000·t + r, j)
  of the product of the whole arrays; the ten row blocks tile the output, so after the region the output array is
  the product X · W of the two arrays the region found.
-/
import proofs.«175924_j19275813224530_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Dense1

open Cert.KernelIdeal Cert.KernelIdeal.Gen Idealize.ShloMosaic Idealize.ShloMosaic.TcCoe Idealize.SL.Sem
open Idealize.ShloMosaic.Pipeline (Dat)

/-- Entry (r, k) of the left factor, for the output entry `i` = (r, j). -/
abbrev lrow (i : S100000x64.Idx) (k : Fin 128) : S100000x128.Idx := fun a => match a with
  | ⟨0, _⟩ => ⟨(i 0).val, (i 0).isLt⟩
  | ⟨1, _⟩ => ⟨k.val, k.isLt⟩
/-- Entry (k, j) of the right factor, for the output entry `i` = (r, j). -/
abbrev rcol (i : S100000x64.Idx) (k : Fin 128) : S128x64.Idx := fun a => match a with
  | ⟨0, _⟩ => ⟨k.val, k.isLt⟩
  | ⟨1, _⟩ => ⟨(i 1).val, (i 1).isLt⟩

/-- The matrix product X · W of a [100000, 128] array with a [128, 64] array on the extended reals:
    entry (r, j) is the sum over k of X (r, k) · W (k, j). -/
def prod (X : S100000x128.Idx → EReal) (W : S128x64.Idx → EReal) : S100000x64.Idx → EReal :=
  fun i => ∑ k : Fin 128, X (lrow i k) * W (rcol i k)

/-- The same two entries inside one block of 10000 rows. -/
abbrev blrow (y : S10000x64.Idx) (k : Fin 128) : S10000x128.Idx := fun a => match a with
  | ⟨0, _⟩ => ⟨(y 0).val, (y 0).isLt⟩
  | ⟨1, _⟩ => ⟨k.val, k.isLt⟩
abbrev brcol (y : S10000x64.Idx) (k : Fin 128) : S128x64.Idx := fun a => match a with
  | ⟨0, _⟩ => ⟨k.val, k.isLt⟩
  | ⟨1, _⟩ => ⟨(y 1).val, (y 1).isLt⟩

/-! ## The block product's operand indices: rows × shared coordinate, shared coordinate × columns -/

theorem lhs0 (y : S10000x64.Idx) (q : dot_S10000x128_S128x64_S10000x64_1_0_0_1_n_n.contr.Idx) :
    (dot_S10000x128_S128x64_S10000x64_1_0_0_1_n_n.lhsIdx y q 0).val = (y 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1 (y : S10000x64.Idx) (q : dot_S10000x128_S128x64_S10000x64_1_0_0_1_n_n.contr.Idx) :
    (dot_S10000x128_S128x64_S10000x64_1_0_0_1_n_n.lhsIdx y q 1).val = (q ⟨0, by decide⟩).val :=
  dot_S10000x128_S128x64_S10000x64_1_0_0_1_n_n.lhsIdx_val_of_single rfl y q
theorem rhs0 (y : S10000x64.Idx) (q : dot_S10000x128_S128x64_S10000x64_1_0_0_1_n_n.contr.Idx) :
    (dot_S10000x128_S128x64_S10000x64_1_0_0_1_n_n.rhsIdx y q 0).val = (q ⟨0, by decide⟩).val :=
  dot_S10000x128_S128x64_S10000x64_1_0_0_1_n_n.rhsIdx_val_of_single rfl y q
theorem rhs1 (y : S10000x64.Idx) (q : dot_S10000x128_S128x64_S10000x64_1_0_0_1_n_n.contr.Idx) :
    (dot_S10000x128_S128x64_S10000x64_1_0_0_1_n_n.rhsIdx y q 1).val = (y 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the body stores, entry by entry: rounding the two blocks to bf16 changes nothing on the extended reals, and
    the product into a zero accumulator is the plain sum of products over the 128 shared coordinates. -/
theorem pay_apply (x0 : Vec Ideal S10000x128 .f32) (x1 : Vec Ideal S128x64 .f32) (y : S10000x64.Idx) :
    k0_pay1 (F := Ideal) x0 x1 y = ∑ k : Fin 128, x0 (blrow y k) * x1 (brcol y k) := by
  unfold k0_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx y ((ValueIdx.contrEquiv1 dot_S10000x128_S128x64_S10000x64_1_0_0_1_n_n 128 rfl rfl).symm k) = blrow y k := funext fun a => Fin.ext (by
    match a with
    | ⟨0, _⟩ => exact lhs0 _ _
    | ⟨1, _⟩ => exact (lhs1 _ _).trans hk)
  have er : dot_S10000x128_S128x64_S10000x64_1_0_0_1_n_n.rhsIdx y ((ValueIdx.contrEquiv1 dot_S10000x128_S128x64_S10000x64_1_0_0_1_n_n 128 rfl rfl).symm k) = brcol y k := funext fun a => Fin.ext (by
    match a with
    | ⟨0, _⟩ => exact (rhs0 _ _).trans hk
    | ⟨1, _⟩ => exact rhs1 _ _)
  rw [el, er]
  rfl

/-! ## From the ten blocks to the whole array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: point `t` takes rows 10000·t … of the left factor and of the
    result, and the whole right factor. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point `t` is rows 10000·t … 10000·t + 9999 of the array. -/
theorem lblk_apply (c : Dev nD) (t : Fin cfg0.N) (z : S10000x128.Idx) (k : S100000x128.Idx)
    (h0 : (k 0).val = t.val * 10000 + (z 0).val) (h1 : (k 1).val = (z 1).val) :
    (iblk0 V c 0 t : Vec Ideal S10000x128 .f32) z = (V c main_arg0 : S100000x128.Idx → Elt Ideal .f32) k := by
  obtain ⟨e0, e1, -, -, -, -⟩ := idx_facts t
  unfold iblk0
  rw [View.read_apply]
  show V c main_arg0 _ = V c main_arg0 _
  refine congrArg _ ?_
  funext a
  apply Fin.ext
  match a with
  | ⟨0, _⟩ => show win0_0.index t 0 * 10000 + 1 * (z 0).val = (k 0).val; rw [e0, h0]; omega
  | ⟨1, _⟩ => show win0_0.index t 1 * 128 + 1 * (z 1).val = (k 1).val; rw [e1, h1]; omega

/-- The right factor's block at every point is the whole array. -/
theorem rblk_apply (c : Dev nD) (t : Fin cfg0.N) (z : S128x64.Idx) (k : S128x64.Idx)
    (h0 : (k 0).val = (z 0).val) (h1 : (k 1).val = (z 1).val) :
    (iblk0 V c 1 t : Vec Ideal S128x64 .f32) z = (V c main_arg3 : S128x64.Idx → Elt Ideal .f32) k := by
  obtain ⟨-, -, e2, e3, -, -⟩ := idx_facts t
  unfold iblk0
  rw [View.read_apply]
  show V c main_arg3 _ = V c main_arg3 _
  refine congrArg _ ?_
  funext a
  apply Fin.ext
  match a with
  | ⟨0, _⟩ => show win0_1.index t 0 * 128 + 1 * (z 0).val = (k 0).val; rw [e2, h0]; omega
  | ⟨1, _⟩ => show win0_1.index t 1 * 64 + 1 * (z 1).val = (k 1).val; rw [e3, h1]; omega

/-- What point `t` writes back is its block of rows of the product of the two arrays as the region finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨-, -, -, -, e4, e5⟩ := idx_facts t
  funext y
  show k0_pay1 (F := Ideal) (iblk0 V c 0 t) (iblk0 V c 1 t) y
    = prod (V c main_arg0) (V c main_arg3) (((cfg0.win 2).blk t).view.emb y)
  refine (pay_apply (iblk0 V c 0 t) (iblk0 V c 1 t) y).trans ?_
  unfold prod
  refine Finset.sum_congr rfl fun k _ => ?_
  have a0 : ((((cfg0.win 2).blk t).view.emb y) 0).val = t.val * 10000 + (y 0).val := by
    show win0_2.index t 0 * 10000 + 1 * (y 0).val = _; rw [e4]; omega
  have a1 : ((((cfg0.win 2).blk t).view.emb y) 1).val = (y 1).val := by
    show win0_2.index t 1 * 64 + 1 * (y 1).val = _; rw [e5]; omega
  rw [lblk_apply V c t (blrow y k) (lrow (((cfg0.win 2).blk t).view.emb y) k) a0 rfl,
    rblk_apply V c t (brcol y k) (rcol (((cfg0.win 2).blk t).view.emb y) k) rfl a1]

/-- An index of the result array is in point `t`'s block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- Row r of the result lies in the block of point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := idx_facts t
  refine ⟨t, flush0_2 t, ?_⟩
  rw [mem_blk]
  intro a
  match a with
  | ⟨0, _⟩ => show win0_2.index t 0 * 10000 ≤ (i 0).val ∧ (i 0).val < win0_2.index t 0 * 10000 + 10000; rw [e4, ht]; omega
  | ⟨1, _⟩ => show win0_2.index t 1 * 64 ≤ (i 1).val ∧ (i 1).val < win0_2.index t 1 * 64 + 64; rw [e5]; omega

/-- After the ten points the result array is the product of the two arrays the region found. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Dense1

end
-- ==== Proof.Dense2.lean ====
/-
  Layer 2's dense product. The region runs over ten grid points; point t loads rows 10000·t … 10000·t + 9999 of the
  [100000, 64] left factor and the whole [64, 64] right factor, rounds both to bf16 (the identity on the extended
  reals), multiplies them into a zero accumulator and writes the [10000, 64] result back as the same rows of the output.
  Entry (r, j) of a block's product is the sum over k of left (r, k) · right (k, j), which is entry (10000·t + r, j)
  of the product of the whole arrays; the ten row blocks tile the output, so after the region the output array is
  the product X · W of the two arrays the region found.
-/
import proofs.«175924_j19275813224530_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Dense2

open Cert.KernelIdeal Cert.KernelIdeal.Gen Idealize.ShloMosaic Idealize.ShloMosaic.TcCoe Idealize.SL.Sem
open Idealize.ShloMosaic.Pipeline (Dat)

/-- Entry (r, k) of the left factor, for the output entry `i` = (r, j). -/
abbrev lrow (i : S100000x64.Idx) (k : Fin 64) : S100000x64.Idx := fun a => match a with
  | ⟨0, _⟩ => ⟨(i 0).val, (i 0).isLt⟩
  | ⟨1, _⟩ => ⟨k.val, k.isLt⟩
/-- Entry (k, j) of the right factor, for the output entry `i` = (r, j). -/
abbrev rcol (i : S100000x64.Idx) (k : Fin 64) : S64x64.Idx := fun a => match a with
  | ⟨0, _⟩ => ⟨k.val, k.isLt⟩
  | ⟨1, _⟩ => ⟨(i 1).val, (i 1).isLt⟩

/-- The matrix product X · W of a [100000, 64] array with a [64, 64] array on the extended reals:
    entry (r, j) is the sum over k of X (r, k) · W (k, j). -/
def prod (X : S100000x64.Idx → EReal) (W : S64x64.Idx → EReal) : S100000x64.Idx → EReal :=
  fun i => ∑ k : Fin 64, X (lrow i k) * W (rcol i k)

/-- The same two entries inside one block of 10000 rows. -/
abbrev blrow (y : S10000x64.Idx) (k : Fin 64) : S10000x64.Idx := fun a => match a with
  | ⟨0, _⟩ => ⟨(y 0).val, (y 0).isLt⟩
  | ⟨1, _⟩ => ⟨k.val, k.isLt⟩
abbrev brcol (y : S10000x64.Idx) (k : Fin 64) : S64x64.Idx := fun a => match a with
  | ⟨0, _⟩ => ⟨k.val, k.isLt⟩
  | ⟨1, _⟩ => ⟨(y 1).val, (y 1).isLt⟩

/-! ## The block product's operand indices: rows × shared coordinate, shared coordinate × columns -/

theorem lhs0 (y : S10000x64.Idx) (q : dot_S10000x64_S64x64_S10000x64_1_0_0_1_n_n.contr.Idx) :
    (dot_S10000x64_S64x64_S10000x64_1_0_0_1_n_n.lhsIdx y q 0).val = (y 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs1 (y : S10000x64.Idx) (q : dot_S10000x64_S64x64_S10000x64_1_0_0_1_n_n.contr.Idx) :
    (dot_S10000x64_S64x64_S10000x64_1_0_0_1_n_n.lhsIdx y q 1).val = (q ⟨0, by decide⟩).val :=
  dot_S10000x64_S64x64_S10000x64_1_0_0_1_n_n.lhsIdx_val_of_single rfl y q
theorem rhs0 (y : S10000x64.Idx) (q : dot_S10000x64_S64x64_S10000x64_1_0_0_1_n_n.contr.Idx) :
    (dot_S10000x64_S64x64_S10000x64_1_0_0_1_n_n.rhsIdx y q 0).val = (q ⟨0, by decide⟩).val :=
  dot_S10000x64_S64x64_S10000x64_1_0_0_1_n_n.rhsIdx_val_of_single rfl y q
theorem rhs1 (y : S10000x64.Idx) (q : dot_S10000x64_S64x64_S10000x64_1_0_0_1_n_n.contr.Idx) :
    (dot_S10000x64_S64x64_S10000x64_1_0_0_1_n_n.rhsIdx y q 1).val = (y 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores, entry by entry: rounding the two blocks to bf16 changes nothing on the extended reals, and
    the product into a zero accumulator is the plain sum of products over the 64 shared coordinates. -/
theorem pay_apply (x0 : Vec Ideal S10000x64 .f32) (x1 : Vec Ideal S64x64 .f32) (y : S10000x64.Idx) :
    k2_pay1 (F := Ideal) x0 x1 y = ∑ k : Fin 64, x0 (blrow y k) * x1 (brcol y k) := by
  unfold k2_pay1
  simp only [matmul, shapeCast_self]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx y ((ValueIdx.contrEquiv1 dot_S10000x64_S64x64_S10000x64_1_0_0_1_n_n 64 rfl rfl).symm k) = blrow y k := funext fun a => Fin.ext (by
    match a with
    | ⟨0, _⟩ => exact lhs0 _ _
    | ⟨1, _⟩ => exact (lhs1 _ _).trans hk)
  have er : dot_S10000x64_S64x64_S10000x64_1_0_0_1_n_n.rhsIdx y ((ValueIdx.contrEquiv1 dot_S10000x64_S64x64_S10000x64_1_0_0_1_n_n 64 rfl rfl).symm k) = brcol y k := funext fun a => Fin.ext (by
    match a with
    | ⟨0, _⟩ => exact (rhs0 _ _).trans hk
    | ⟨1, _⟩ => exact rhs1 _ _)
  rw [el, er]
  rfl

/-! ## From the ten blocks to the whole array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: point `t` takes rows 10000·t … of the left factor and of the
    result, and the whole right factor. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left factor's block at point `t` is rows 10000·t … 10000·t + 9999 of the array. -/
theorem lblk_apply (c : Dev nD) (t : Fin cfg2.N) (z : S10000x64.Idx) (k : S100000x64.Idx)
    (h0 : (k 0).val = t.val * 10000 + (z 0).val) (h1 : (k 1).val = (z 1).val) :
    (iblk2 V c 0 t : Vec Ideal S10000x64 .f32) z = (V c main_v49 : S100000x64.Idx → Elt Ideal .f32) k := by
  obtain ⟨e0, e1, -, -, -, -⟩ := idx_facts t
  unfold iblk2
  rw [View.read_apply]
  show V c main_v49 _ = V c main_v49 _
  refine congrArg _ ?_
  funext a
  apply Fin.ext
  match a with
  | ⟨0, _⟩ => show win2_0.index t 0 * 10000 + 1 * (z 0).val = (k 0).val; rw [e0, h0]; omega
  | ⟨1, _⟩ => show win2_0.index t 1 * 64 + 1 * (z 1).val = (k 1).val; rw [e1, h1]; omega

/-- The right factor's block at every point is the whole array. -/
theorem rblk_apply (c : Dev nD) (t : Fin cfg2.N) (z : S64x64.Idx) (k : S64x64.Idx)
    (h0 : (k 0).val = (z 0).val) (h1 : (k 1).val = (z 1).val) :
    (iblk2 V c 1 t : Vec Ideal S64x64 .f32) z = (V c main_arg5 : S64x64.Idx → Elt Ideal .f32) k := by
  obtain ⟨-, -, e2, e3, -, -⟩ := idx_facts t
  unfold iblk2
  rw [View.read_apply]
  show V c main_arg5 _ = V c main_arg5 _
  refine congrArg _ ?_
  funext a
  apply Fin.ext
  match a with
  | ⟨0, _⟩ => show win2_1.index t 0 * 64 + 1 * (z 0).val = (k 0).val; rw [e2, h0]; omega
  | ⟨1, _⟩ => show win2_1.index t 1 * 64 + 1 * (z 1).val = (k 1).val; rw [e3, h1]; omega

/-- What point `t` writes back is its block of rows of the product of the two arrays as the region finds them. -/
theorem flushed_eq (c : Dev nD) (t : Fin cfg2.N) :
    (dat2 V c).flushed 2 t = ((cfg2.win 2).blk t).view.read (Elt Ideal) (prod (V c main_v49) (V c main_arg5)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨-, -, -, -, e4, e5⟩ := idx_facts t
  funext y
  show k2_pay1 (F := Ideal) (iblk2 V c 0 t) (iblk2 V c 1 t) y
    = prod (V c main_v49) (V c main_arg5) (((cfg2.win 2).blk t).view.emb y)
  refine (pay_apply (iblk2 V c 0 t) (iblk2 V c 1 t) y).trans ?_
  unfold prod
  refine Finset.sum_congr rfl fun k _ => ?_
  have a0 : ((((cfg2.win 2).blk t).view.emb y) 0).val = t.val * 10000 + (y 0).val := by
    show win2_2.index t 0 * 10000 + 1 * (y 0).val = _; rw [e4]; omega
  have a1 : ((((cfg2.win 2).blk t).view.emb y) 1).val = (y 1).val := by
    show win2_2.index t 1 * 64 + 1 * (y 1).val = _; rw [e5]; omega
  rw [lblk_apply V c t (blrow y k) (lrow (((cfg2.win 2).blk t).view.emb y) k) a0 rfl,
    rblk_apply V c t (brcol y k) (rcol (((cfg2.win 2).blk t).view.emb y) k) rfl a1]

/-- An index of the result array is in point `t`'s block iff each coordinate is in the block's range. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v50).slice (win2_2.rect t)).set ↔ _
  rw [View.set_slice_whole, Rect.mem_set_unit]
  exact Iff.rfl

/-- Row r of the result lies in the block of point r / 10000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := idx_facts t
  refine ⟨t, flush2_2 t, ?_⟩
  rw [mem_blk]
  intro a
  match a with
  | ⟨0, _⟩ => show win2_2.index t 0 * 10000 ≤ (i 0).val ∧ (i 0).val < win2_2.index t 0 * 10000 + 10000; rw [e4, ht]; omega
  | ⟨1, _⟩ => show win2_2.index t 1 * 64 ≤ (i 1).val ∧ (i 1).val < win2_2.index t 1 * 64 + 64; rw [e5]; omega

/-- After the ten points the result array is the product of the two arrays the region found. -/
theorem final (c : Dev nD) : (dat2 V c).arrAt 2 cfg2.N = prod (V c main_v49) (V c main_arg5) :=
  (dat2 V c).arrAt_eq_of_cover 2 (prod (V c main_v49) (V c main_arg5)) (fun t _ => flushed_eq V c t) cover

end Cert.KernelIdeal.Dense2

end
-- ==== Proof.Dense3.lean ====
/-
  Layer 3's dense product. The region runs over ten grid points; point t loads rows 10000·t … 10000·t + 9999 of the
  [100000, 64] left factor and the whole [64, 16] right factor, rounds both to bf16 (the identity on the extended
  reals), multiplies them into a zero accumulator and writes the [10000, 16] result back as the same rows of the output.
  Entry (r, j) of a block's product is the sum over k of left (r, k) · right (k, j), which is entry (10000·t + r, j)
  of the product of the whole arrays; the ten row blocks tile the output, so after the region the output array is
  the product X · W of the two arrays the region found.
-/
import proofs.«175924_j19275813224530_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Dense3

open Cert.KernelIdeal Cert.KernelIdeal.Gen Idealize.ShloMosaic Idealize.ShloMosaic.TcCoe Idealize.SL.Sem
open Idealize.ShloMosaic.Pipeline (Dat)

/-- Entry (r, k) of the left factor, for the output entry `i` = (r, j). -/
abbrev lrow (i : S100000x16.Idx) (k : Fin 64) : S100000x64.Idx := fun a => match a with
  | ⟨0, _⟩ => ⟨(i 0).val, (i 0).isLt⟩
  | ⟨1, _⟩ => ⟨k.val, k.isLt⟩
/-- Entry (k, j) of the right factor, for the output entry `i` = (r, j). -/
abbrev rcol (i : S100000x16.Idx) (k : Fin 64) : S64x16.Idx := fun a => match a with
  | ⟨0, _⟩ => ⟨k.val, k.isLt⟩
  | ⟨1, _⟩ => ⟨(i 1).val, (i 1).isLt⟩

/-- The matrix product X · W of a [100000, 64] array with a [64, 16] array on the extended reals:
    entry (r, j) is the sum over k of X (r, k) · W (k, j). -/
def prod (X : S100000x64.Idx → EReal) (W : S64x16.Idx → EReal) : S100000x16.Idx → EReal :=
  fun i => ∑ k : Fin 64, X (lrow i k) * W (rcol i k)

/-- The same two entries inside one block of 10000 rows. -/
abbrev blrow (y : S10000x16.Idx) (k : Fin 64) : S10000x64.Idx := fun a => match a with
  | ⟨0, _⟩ => ⟨(y 0).val, (y 0).isLt⟩
  | ⟨1, _⟩ => ⟨k.val, k.isLt⟩
abbrev brcol (y : S10000x16.Idx) (k : Fin 64) : S64x16.Idx := fun a => match a with
  | ⟨0, _⟩ => ⟨k.val, k.isLt⟩
  | ⟨1, _⟩ => ⟨(y 1).val, (y 1).isLt⟩

/-! ## The block product's operand indices: rows × shared coordinate, shared coordinate × columns -/

theorem lhs0 (y : S10000x16.Idx) (q : dot_S10000x64_S64x16_S10000x16_1_0_0_1_n_n.contr.Idx) :
    (dot_S10000x64_S64x16_S10000x16_1_0_0_1_n_n.lhsIdx y q 0).val = (y 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem lhs1 (y : S10000x16.Idx) (q : dot_S10000x64_S64x16_S10000x16_1_0_0_1_n_n.contr.Idx) :
    (dot_S10000x64_S64x16_S10000x16_1_0_0_1_n_n.lhsIdx y q 1).val = (q ⟨0, by decide⟩).val :=
  dot_S10000x64_S64x16_S10000x16_1_0_0_1_n_n.lhsIdx_val_of_single rfl y q
theorem rhs0 (y : S10000x16.Idx) (q : dot_S10000x64_S64x16_S10000x16_1_0_0_1_n_n.contr.Idx) :
    (dot_S10000x64_S64x16_S10000x16_1_0_0_1_n_n.rhsIdx y q 0).val = (q ⟨0, by decide⟩).val :=
  dot_S10000x64_S64x16_S10000x16_1_0_0_1_n_n.rhsIdx_val_of_single rfl y q
theorem rhs1 (y : S10000x16.Idx) (q : dot_S10000x64_S64x16_S10000x16_1_0_0_1_n_n.contr.Idx) :
    (dot_S10000x64_S64x16_S10000x16_1_0_0_1_n_n.rhsIdx y q 1).val = (y 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- What the body stores, entry by entry: rounding the two blocks to bf16 changes nothing on the extended reals, and
    the product into a zero accumulator is the plain sum of products over the 64 shared coordinates. -/
theorem pay_apply (x0 : Vec Ideal S10000x64 .f32) (x1 : Vec Ideal S64x16 .f32) (y : S10000x16.Idx) :
    k4_pay1 (F := Ideal) x0 x1 y = ∑ k : Fin 64, x0 (blrow y k) * x1 (brcol y k) := by
  unfold k4_pay1
  simp only [matmul, shapeCast_self]
  rw [Ideal.matmul_constant_zero_apply, ← Equiv.sum_comp (ValueIdx.contrEquiv1 dot_S10000x64_S64x16_S10000x16_1_0_0_1_n_n 64 rfl rfl).symm]
  refine Finset.sum_congr rfl fun k _ => ?_
  have hk := ValueIdx.contrEquiv1_symm_val dot_S10000x64_S64x16_S10000x16_1_0_0_1_n_n 64 rfl rfl k
  have el : dot_S10000x64_S64x16_S10000x16_1_0_0_1_n_n.lhsIdx y ((ValueIdx.contrEquiv1 dot_S10000x64_S64x16_S10000x16_1_0_0_1_n_n 64 rfl rfl).symm k) = blrow y k := funext fun a => Fin.ext (by
    match a with
    | ⟨0, _⟩ => exact lhs0 _ _
    | ⟨1, _⟩ => exact (lhs1 _ _).trans hk)
  have er : dot_S10000x64_S64x16_S10000x16_1_0_0_1_n_n.rhsIdx y ((ValueIdx.contrEquiv1 dot_S10000x64_S64x16_S10000x16_1_0_0_1_n_n 64 rfl rfl).symm k) = brcol y k := funext fun a => Fin.ext (by
    match a with
    | ⟨0, _⟩ => exact (rhs0 _ _).trans hk
    | ⟨1, _⟩ => exact rhs1 _ _)
  rw [el, er]
  rfl

/-! ## From the ten blocks to the whole array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: point `t` takes rows 10000·t … of the left factor and of the
    result, and the whole right factor. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left factor's block at point `t` is rows 10000·t … 10000·t + 9999 of the array. -/
theorem lblk_apply (c : Dev nD) (t : Fin cfg4.N) (z : S10000x64.Idx) (k : S100000x64.Idx)
    (h0 : (k 0).val = t.val * 10000 + (z 0).val) (h1 : (k 1).val = (z 1).val) :
    (iblk4 V c 0 t : Vec Ideal S10000x64 .f32) z = (V c main_v64 : S100000x64.Idx → Elt Ideal .f32) k := by
  obtain ⟨e0, e1, -, -, -, -⟩ := idx_facts t
  unfold iblk4
  rw [View.read_apply]
  show V c main_v64 _ = V c main_v64 _
  refine congrArg _ ?_
  funext a
  apply Fin.ext
  match a with
  | ⟨0, _⟩ => show win4_0.index t 0 * 10000 + 1 * (z 0).val = (k 0).val; rw [e0, h0]; omega
  | ⟨1, _⟩ => show win4_0.index t 1 * 64 + 1 * (z 1).val = (k 1).val; rw [e1, h1]; omega

/-- The right factor's block at every point is the whole array. -/
theorem rblk_apply (c : Dev nD) (t : Fin cfg4.N) (z : S64x16.Idx) (k : S64x16.Idx)
    (h0 : (k 0).val = (z 0).val) (h1 : (k 1).val = (z 1).val) :
    (iblk4 V c 1 t : Vec Ideal S64x16 .f32) z = (V c main_arg7 : S64x16.Idx → Elt Ideal .f32) k := by
  obtain ⟨-, -, e2, e3, -, -⟩ := idx_facts t
  unfold iblk4
  rw [View.read_apply]
  show V c main_arg7 _ = V c main_arg7 _
  refine congrArg _ ?_
  funext a
  apply Fin.ext
  match a with
  | ⟨0, _⟩ => show win4_1.index t 0 * 64 + 1 * (z 0).val = (k 0).val; rw [e2, h0]; omega
  | ⟨1, _⟩ => show win4_1.index t 1 * 16 + 1 * (z 1).val = (k 1).val; rw [e3, h1]; omega

/-- What point `t` writes back is its block of rows of the product of the two arrays as the region finds them. -/
theorem flushed_eq (c : Dev nD) (t : Fin cfg4.N) :
    (dat4 V c).flushed 2 t = ((cfg4.win 2).blk t).view.read (Elt Ideal) (prod (V c main_v64) (V c main_arg7)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x16) hz]
  obtain ⟨-, -, -, -, e4, e5⟩ := idx_facts t
  funext y
  show k4_pay1 (F := Ideal) (iblk4 V c 0 t) (iblk4 V c 1 t) y
    = prod (V c main_v64) (V c main_arg7) (((cfg4.win 2).blk t).view.emb y)
  refine (pay_apply (iblk4 V c 0 t) (iblk4 V c 1 t) y).trans ?_
  unfold prod
  refine Finset.sum_congr rfl fun k _ => ?_
  have a0 : ((((cfg4.win 2).blk t).view.emb y) 0).val = t.val * 10000 + (y 0).val := by
    show win4_2.index t 0 * 10000 + 1 * (y 0).val = _; rw [e4]; omega
  have a1 : ((((cfg4.win 2).blk t).view.emb y) 1).val = (y 1).val := by
    show win4_2.index t 1 * 16 + 1 * (y 1).val = _; rw [e5]; omega
  rw [lblk_apply V c t (blrow y k) (lrow (((cfg4.win 2).blk t).view.emb y) k) a0 rfl,
    rblk_apply V c t (brcol y k) (rcol (((cfg4.win 2).blk t).view.emb y) k) rfl a1]

/-- An index of the result array is in point `t`'s block iff each coordinate is in the block's range. -/
theorem mem_blk (t : Fin cfg4.N) (i : S100000x16.Idx) :
    i ∈ ((cfg4.win 2).blk t).view.set ↔ ∀ a : Fin 2, win4_2.index t a * S10000x16.size a ≤ (i a).val ∧ (i a).val < win4_2.index t a * S10000x16.size a + S10000x16.size a := by
  show i ∈ ((View.whole main_v65).slice (win4_2.rect t)).set ↔ _
  rw [View.set_slice_whole, Rect.mem_set_unit]
  exact Iff.rfl

/-- Row r of the result lies in the block of point r / 10000. -/
theorem cover (i : S100000x16.Idx) : ∃ t : Fin cfg4.N, (cfg4.win 2).flush t = true ∧ i ∈ ((cfg4.win 2).blk t).view.set := by
  have hi0 : (i 0).val < 100000 := (i 0).isLt
  have hi1 : (i 1).val < 16 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, e4, e5⟩ := idx_facts t
  refine ⟨t, flush4_2 t, ?_⟩
  rw [mem_blk]
  intro a
  match a with
  | ⟨0, _⟩ => show win4_2.index t 0 * 10000 ≤ (i 0).val ∧ (i 0).val < win4_2.index t 0 * 10000 + 10000; rw [e4, ht]; omega
  | ⟨1, _⟩ => show win4_2.index t 1 * 16 ≤ (i 1).val ∧ (i 1).val < win4_2.index t 1 * 16 + 16; rw [e5]; omega

/-- After the ten points the result array is the product of the two arrays the region found. -/
theorem final (c : Dev nD) : (dat4 V c).arrAt 2 cfg4.N = prod (V c main_v64) (V c main_arg7) :=
  (dat4 V c).arrAt_eq_of_cover 2 (prod (V c main_v64) (V c main_arg7)) (fun t _ => flushed_eq V c t) cover

end Cert.KernelIdeal.Dense3

end
-- ==== Proof.Bias1.lean ====
/-
  Layer 1's epilogue. The region runs over ten grid points; point t loads rows 10000·t … 10000·t + 9999 of the
  [100000, 64] aggregate and the whole [64] bias, adds the bias along every row and takes the maximum with zero, and writes the
  block back as the same rows of the output. Entry (r, j) of a block's result depends only on the aggregate's entry
  (10000·t + r, j) and the bias's entry j; the ten row blocks tile the output, so after the region the output array is
  max (A + b, 0) of the two arrays the region found, entry by entry.
-/
import proofs.«175924_j19275813224530_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Bias1

open Cert.KernelIdeal Cert.KernelIdeal.Gen Idealize.ShloMosaic Idealize.ShloMosaic.TcCoe Idealize.SL.Sem
open Idealize.ShloMosaic.Pipeline (Dat)
open Idealize.ShloMosaic.ValueIdx

/-- The bias's entry for column j of the output entry `i` = (r, j). -/
abbrev bcol (i : S100000x64.Idx) : S64.Idx := ix1 ⟨(i 1).val, (i 1).isLt⟩

/-- The aggregate with the bias added along every row, cut below at zero: entry (r, j) is max (A (r, j) + b j, 0). -/
def biasRelu (A : S100000x64.Idx → EReal) (b : S64.Idx → EReal) : S100000x64.Idx → EReal :=
  fun i => max (A i + b (bcol i)) (Ideal.ofBits .f32 0x00000000#32)

/-- What the body stores, at the entry (p, q) of a block: the bias is cast to one row and spread over the 10000 rows. -/
theorem pay_ix (x0 : Vec Ideal S10000x64 .f32) (x1 : Vec Ideal S64 .f32) (p : Fin 10000) (q : Fin 64) :
    k1_pay1 (F := Ideal) x0 x1 (ix2 p q) = max (x0 (ix2 p q) + x1 (ix1 q)) (Ideal.ofBits .f32 0x00000000#32) := by
  unfold k1_pay1
  simp only [shapeCast_self]
  show max (x0 (ix2 p q) + broadcastTo S10000x64 (shapeCast S1x64 x1 shapeCasts_S64_S1x64) broadcasts_S1x64_S10000x64 (ix2 p q)) (Ideal.ofBits .f32 0x00000000#32) = _
  rw [broadcastTo_1b_ab_apply, shapeCast_a_1a_apply]

/-- The same at any entry of the block. -/
theorem pay_apply (x0 : Vec Ideal S10000x64 .f32) (x1 : Vec Ideal S64 .f32) (y : S10000x64.Idx) :
    k1_pay1 (F := Ideal) x0 x1 y = max (x0 y + x1 (ix1 ⟨(y 1).val, (y 1).isLt⟩)) (Ideal.ofBits .f32 0x00000000#32) := by
  obtain ⟨p, q, rfl⟩ : ∃ (p : Fin 10000) (q : Fin 64), y = ix2 p q := ⟨y 0, y 1, eq_ix2 y⟩
  exact pay_ix x0 x1 p q

/-! ## From the ten blocks to the whole array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the ten grid points: point `t` takes rows 10000·t … of the aggregate and of the
    result, and the whole bias. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The aggregate's block at point `t` is rows 10000·t … 10000·t + 9999 of the array. -/
theorem ablk_apply (c : Dev nD) (t : Fin cfg1.N) (z : S10000x64.Idx) (k : S100000x64.Idx)
    (h0 : (k 0).val = t.val * 10000 + (z 0).val) (h1 : (k 1).val = (z 1).val) :
    (iblk1 V c 0 t : Vec Ideal S10000x64 .f32) z = (V c main_v48 : S100000x64.Idx → Elt Ideal .f32) k := by
  obtain ⟨e0, e1, -, -, -⟩ := idx_facts t
  unfold iblk1
  rw [View.read_apply]
  show V c main_v48 _ = V c main_v48 _
  refine congrArg _ ?_
  funext a
  apply Fin.ext
  match a with
  | ⟨0, _⟩ => show win1_0.index t 0 * 10000 + 1 * (z 0).val = (k 0).val; rw [e0, h0]; omega
  | ⟨1, _⟩ => show win1_0.index t 1 * 64 + 1 * (z 1).val = (k 1).val; rw [e1, h1]; omega

/-- The bias's block at every point is the whole array. -/
theorem bblk_apply (c : Dev nD) (t : Fin cfg1.N) (z : S64.Idx) (k : S64.Idx) (h0 : (k 0).val = (z 0).val) :
    (iblk1 V c 1 t : Vec Ideal S64 .f32) z = (V c main_arg4 : S64.Idx → Elt Ideal .f32) k := by
  obtain ⟨-, -, e2, -, -⟩ := idx_facts t
  unfold iblk1
  rw [View.read_apply]
  show V c main_arg4 _ = V c main_arg4 _
  refine congrArg _ ?_
  funext a
  apply Fin.ext
  match a with
  | ⟨0, _⟩ => show win1_1.index t 0 * 64 + 1 * (z 0).val = (k 0).val; rw [e2, h0]; omega

/-- What point `t` writes back is its block of rows of `biasRelu` of the two arrays as the region finds them. -/
theorem flushed_eq (c : Dev nD) (t : Fin cfg1.N) :
    (dat1 V c).flushed 2 t = ((cfg1.win 2).blk t).view.read (Elt Ideal) (biasRelu (V c main_v48) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64) hz1]
  obtain ⟨-, -, -, e4, e5⟩ := idx_facts t
  funext y
  show k1_pay1 (F := Ideal) (iblk1 V c 0 t) (iblk1 V c 1 t) y
    = biasRelu (V c main_v48) (V c main_arg4) (((cfg1.win 2).blk t).view.emb y)
  refine (pay_apply (iblk1 V c 0 t) (iblk1 V c 1 t) y).trans ?_
  unfold biasRelu
  have a0 : ((((cfg1.win 2).blk t).view.emb y) 0).val = t.val * 10000 + (y 0).val := by
    show win1_2.index t 0 * 10000 + 1 * (y 0).val = _; rw [e4]; omega
  have a1 : ((((cfg1.win 2).blk t).view.emb y) 1).val = (y 1).val := by
    show win1_2.index t 1 * 64 + 1 * (y 1).val = _; rw [e5]; omega
  rw [ablk_apply V c t y (((cfg1.win 2).blk t).view.emb y) a0 a1,
    bblk_apply V c t (ix1 ⟨(y 1).val, (y 1).isLt⟩) (bcol (((cfg1.win 2).blk t).view.emb y)) a1]

/-- An index of the result array is in point `t`'s block iff each coordinate is in the block's range. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- Row r of the result lies in the block of point r / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, e4, e5⟩ := idx_facts t
  refine ⟨t, flush1_2 t, ?_⟩
  rw [mem_blk]
  intro a
  match a with
  | ⟨0, _⟩ => show win1_2.index t 0 * 10000 ≤ (i 0).val ∧ (i 0).val < win1_2.index t 0 * 10000 + 10000; rw [e4, ht]; omega
  | ⟨1, _⟩ => show win1_2.index t 1 * 64 ≤ (i 1).val ∧ (i 1).val < win1_2.index t 1 * 64 + 64; rw [e5]; omega

/-- After the ten points the result array is `biasRelu` of the two arrays the region found. -/
theorem final (c : Dev nD) : (dat1 V c).arrAt 2 cfg1.N = biasRelu (V c main_v48) (V c main_arg4) :=
  (dat1 V c).arrAt_eq_of_cover 2 (biasRelu (V c main_v48) (V c main_arg4)) (fun t _ => flushed_eq V c t) cover

end Cert.KernelIdeal.Bias1

end
-- ==== Proof.Bias2.lean ====
/-
  Layer 2's epilogue. The region runs over ten grid points; point t loads rows 10000·t … 10000·t + 9999 of the
  [100000, 64] aggregate and the whole [64] bias, adds the bias along every row and takes the maximum with zero, and writes the
  block back as the same rows of the output. Entry (r, j) of a block's result depends only on the aggregate's entry
  (10000·t + r, j) and the bias's entry j; the ten row blocks tile the output, so after the region the output array is
  max (A + b, 0) of the two arrays the region found, entry by entry.
-/
import proofs.«175924_j19275813224530_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Bias2

open Cert.KernelIdeal Cert.KernelIdeal.Gen Idealize.ShloMosaic Idealize.ShloMosaic.TcCoe Idealize.SL.Sem
open Idealize.ShloMosaic.Pipeline (Dat)
open Idealize.ShloMosaic.ValueIdx

/-- The bias's entry for column j of the output entry `i` = (r, j). -/
abbrev bcol (i : S100000x64.Idx) : S64.Idx := ix1 ⟨(i 1).val, (i 1).isLt⟩

/-- The aggregate with the bias added along every row, cut below at zero: entry (r, j) is max (A (r, j) + b j, 0). -/
def biasRelu (A : S100000x64.Idx → EReal) (b : S64.Idx → EReal) : S100000x64.Idx → EReal :=
  fun i => max (A i + b (bcol i)) (Ideal.ofBits .f32 0x00000000#32)

/-- What the body stores, at the entry (p, q) of a block: the bias is cast to one row and spread over the 10000 rows. -/
theorem pay_ix (x0 : Vec Ideal S10000x64 .f32) (x1 : Vec Ideal S64 .f32) (p : Fin 10000) (q : Fin 64) :
    k3_pay1 (F := Ideal) x0 x1 (ix2 p q) = max (x0 (ix2 p q) + x1 (ix1 q)) (Ideal.ofBits .f32 0x00000000#32) := by
  unfold k3_pay1
  simp only [shapeCast_self]
  show max (x0 (ix2 p q) + broadcastTo S10000x64 (shapeCast S1x64 x1 shapeCasts_S64_S1x64) broadcasts_S1x64_S10000x64 (ix2 p q)) (Ideal.ofBits .f32 0x00000000#32) = _
  rw [broadcastTo_1b_ab_apply, shapeCast_a_1a_apply]

/-- The same at any entry of the block. -/
theorem pay_apply (x0 : Vec Ideal S10000x64 .f32) (x1 : Vec Ideal S64 .f32) (y : S10000x64.Idx) :
    k3_pay1 (F := Ideal) x0 x1 y = max (x0 y + x1 (ix1 ⟨(y 1).val, (y 1).isLt⟩)) (Ideal.ofBits .f32 0x00000000#32) := by
  obtain ⟨p, q, rfl⟩ : ∃ (p : Fin 10000) (q : Fin 64), y = ix2 p q := ⟨y 0, y 1, eq_ix2 y⟩
  exact pay_ix x0 x1 p q

/-! ## From the ten blocks to the whole array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the ten grid points: point `t` takes rows 10000·t … of the aggregate and of the
    result, and the whole bias. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The aggregate's block at point `t` is rows 10000·t … 10000·t + 9999 of the array. -/
theorem ablk_apply (c : Dev nD) (t : Fin cfg3.N) (z : S10000x64.Idx) (k : S100000x64.Idx)
    (h0 : (k 0).val = t.val * 10000 + (z 0).val) (h1 : (k 1).val = (z 1).val) :
    (iblk3 V c 0 t : Vec Ideal S10000x64 .f32) z = (V c main_v63 : S100000x64.Idx → Elt Ideal .f32) k := by
  obtain ⟨e0, e1, -, -, -⟩ := idx_facts t
  unfold iblk3
  rw [View.read_apply]
  show V c main_v63 _ = V c main_v63 _
  refine congrArg _ ?_
  funext a
  apply Fin.ext
  match a with
  | ⟨0, _⟩ => show win3_0.index t 0 * 10000 + 1 * (z 0).val = (k 0).val; rw [e0, h0]; omega
  | ⟨1, _⟩ => show win3_0.index t 1 * 64 + 1 * (z 1).val = (k 1).val; rw [e1, h1]; omega

/-- The bias's block at every point is the whole array. -/
theorem bblk_apply (c : Dev nD) (t : Fin cfg3.N) (z : S64.Idx) (k : S64.Idx) (h0 : (k 0).val = (z 0).val) :
    (iblk3 V c 1 t : Vec Ideal S64 .f32) z = (V c main_arg6 : S64.Idx → Elt Ideal .f32) k := by
  obtain ⟨-, -, e2, -, -⟩ := idx_facts t
  unfold iblk3
  rw [View.read_apply]
  show V c main_arg6 _ = V c main_arg6 _
  refine congrArg _ ?_
  funext a
  apply Fin.ext
  match a with
  | ⟨0, _⟩ => show win3_1.index t 0 * 64 + 1 * (z 0).val = (k 0).val; rw [e2, h0]; omega

/-- What point `t` writes back is its block of rows of `biasRelu` of the two arrays as the region finds them. -/
theorem flushed_eq (c : Dev nD) (t : Fin cfg3.N) :
    (dat3 V c).flushed 2 t = ((cfg3.win 2).blk t).view.read (Elt Ideal) (biasRelu (V c main_v63) (V c main_arg6)) := by
  show (cfg3.win 2).cut (grid3.coords t) ((dat3 V c).after 2 t) = _
  rw [after3_2]
  unfold out3_2
  rw [View.canon_unit_zero hz]
  simp only [View.ld_unit_zero (S := S10000x64) hz, View.ld_unit_zero (S := S64) hz1]
  obtain ⟨-, -, -, e4, e5⟩ := idx_facts t
  funext y
  show k3_pay1 (F := Ideal) (iblk3 V c 0 t) (iblk3 V c 1 t) y
    = biasRelu (V c main_v63) (V c main_arg6) (((cfg3.win 2).blk t).view.emb y)
  refine (pay_apply (iblk3 V c 0 t) (iblk3 V c 1 t) y).trans ?_
  unfold biasRelu
  have a0 : ((((cfg3.win 2).blk t).view.emb y) 0).val = t.val * 10000 + (y 0).val := by
    show win3_2.index t 0 * 10000 + 1 * (y 0).val = _; rw [e4]; omega
  have a1 : ((((cfg3.win 2).blk t).view.emb y) 1).val = (y 1).val := by
    show win3_2.index t 1 * 64 + 1 * (y 1).val = _; rw [e5]; omega
  rw [ablk_apply V c t y (((cfg3.win 2).blk t).view.emb y) a0 a1,
    bblk_apply V c t (ix1 ⟨(y 1).val, (y 1).isLt⟩) (bcol (((cfg3.win 2).blk t).view.emb y)) a1]

/-- An index of the result array is in point `t`'s block iff each coordinate is in the block's range. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v64).slice (win3_2.rect t)).set ↔ _
  rw [View.set_slice_whole, Rect.mem_set_unit]
  exact Iff.rfl

/-- Row r of the result lies in the block of point r / 10000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, e4, e5⟩ := idx_facts t
  refine ⟨t, flush3_2 t, ?_⟩
  rw [mem_blk]
  intro a
  match a with
  | ⟨0, _⟩ => show win3_2.index t 0 * 10000 ≤ (i 0).val ∧ (i 0).val < win3_2.index t 0 * 10000 + 10000; rw [e4, ht]; omega
  | ⟨1, _⟩ => show win3_2.index t 1 * 64 ≤ (i 1).val ∧ (i 1).val < win3_2.index t 1 * 64 + 64; rw [e5]; omega

/-- After the ten points the result array is `biasRelu` of the two arrays the region found. -/
theorem final (c : Dev nD) : (dat3 V c).arrAt 2 cfg3.N = biasRelu (V c main_v63) (V c main_arg6) :=
  (dat3 V c).arrAt_eq_of_cover 2 (biasRelu (V c main_v63) (V c main_arg6)) (fun t _ => flushed_eq V c t) cover

end Cert.KernelIdeal.Bias2

end
-- ==== Proof.Bias3.lean ====
/-
  Layer 3's epilogue. The region runs over ten grid points; point t loads rows 10000·t … 10000·t + 9999 of the
  [100000, 16] aggregate and the whole [16] bias, adds the bias along every row, and writes the
  block back as the same rows of the output. Entry (r, j) of a block's result depends only on the aggregate's entry
  (10000·t + r, j) and the bias's entry j; the ten row blocks tile the output, so after the region the output array is
  A + b of the two arrays the region found, entry by entry.
-/
import proofs.«175924_j19275813224530_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Bias3

open Cert.KernelIdeal Cert.KernelIdeal.Gen Idealize.ShloMosaic Idealize.ShloMosaic.TcCoe Idealize.SL.Sem
open Idealize.ShloMosaic.Pipeline (Dat)
open Idealize.ShloMosaic.ValueIdx

/-- The bias's entry for column j of the output entry `i` = (r, j). -/
abbrev bcol (i : S100000x16.Idx) : S16.Idx := ix1 ⟨(i 1).val, (i 1).isLt⟩

/-- The aggregate with the bias added along every row: entry (r, j) is A (r, j) + b j. -/
def bias (A : S100000x16.Idx → EReal) (b : S16.Idx → EReal) : S100000x16.Idx → EReal :=
  fun i => A i + b (bcol i)

/-- What the body stores, at the entry (p, q) of a block: the bias is cast to one row and spread over the 10000 rows. -/
theorem pay_ix (x0 : Vec Ideal S10000x16 .f32) (x1 : Vec Ideal S16 .f32) (p : Fin 10000) (q : Fin 16) :
    k5_pay1 (F := Ideal) x0 x1 (ix2 p q) = x0 (ix2 p q) + x1 (ix1 q) := by
  unfold k5_pay1
  simp only [shapeCast_self]
  show x0 (ix2 p q) + broadcastTo S10000x16 (shapeCast S1x16 x1 shapeCasts_S16_S1x16) broadcasts_S1x16_S10000x16 (ix2 p q) = _
  rw [broadcastTo_1b_ab_apply, shapeCast_a_1a_apply]

/-- The same at any entry of the block. -/
theorem pay_apply (x0 : Vec Ideal S10000x16 .f32) (x1 : Vec Ideal S16 .f32) (y : S10000x16.Idx) :
    k5_pay1 (F := Ideal) x0 x1 y = x0 y + x1 (ix1 ⟨(y 1).val, (y 1).isLt⟩) := by
  obtain ⟨p, q, rfl⟩ : ∃ (p : Fin 10000) (q : Fin 16), y = ix2 p q := ⟨y 0, y 1, eq_ix2 y⟩
  exact pay_ix x0 x1 p q

/-! ## From the ten blocks to the whole array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the ten grid points: point `t` takes rows 10000·t … of the aggregate and of the
    result, and the whole bias. -/
theorem idx_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- The aggregate's block at point `t` is rows 10000·t … 10000·t + 9999 of the array. -/
theorem ablk_apply (c : Dev nD) (t : Fin cfg5.N) (z : S10000x16.Idx) (k : S100000x16.Idx)
    (h0 : (k 0).val = t.val * 10000 + (z 0).val) (h1 : (k 1).val = (z 1).val) :
    (iblk5 V c 0 t : Vec Ideal S10000x16 .f32) z = (V c main_v78 : S100000x16.Idx → Elt Ideal .f32) k := by
  obtain ⟨e0, e1, -, -, -⟩ := idx_facts t
  unfold iblk5
  rw [View.read_apply]
  show V c main_v78 _ = V c main_v78 _
  refine congrArg _ ?_
  funext a
  apply Fin.ext
  match a with
  | ⟨0, _⟩ => show win5_0.index t 0 * 10000 + 1 * (z 0).val = (k 0).val; rw [e0, h0]; omega
  | ⟨1, _⟩ => show win5_0.index t 1 * 16 + 1 * (z 1).val = (k 1).val; rw [e1, h1]; omega

/-- The bias's block at every point is the whole array. -/
theorem bblk_apply (c : Dev nD) (t : Fin cfg5.N) (z : S16.Idx) (k : S16.Idx) (h0 : (k 0).val = (z 0).val) :
    (iblk5 V c 1 t : Vec Ideal S16 .f32) z = (V c main_arg8 : S16.Idx → Elt Ideal .f32) k := by
  obtain ⟨-, -, e2, -, -⟩ := idx_facts t
  unfold iblk5
  rw [View.read_apply]
  show V c main_arg8 _ = V c main_arg8 _
  refine congrArg _ ?_
  funext a
  apply Fin.ext
  match a with
  | ⟨0, _⟩ => show win5_1.index t 0 * 16 + 1 * (z 0).val = (k 0).val; rw [e2, h0]; omega

/-- What point `t` writes back is its block of rows of `bias` of the two arrays as the region finds them. -/
theorem flushed_eq (c : Dev nD) (t : Fin cfg5.N) :
    (dat5 V c).flushed 2 t = ((cfg5.win 2).blk t).view.read (Elt Ideal) (bias (V c main_v78) (V c main_arg8)) := by
  show (cfg5.win 2).cut (grid5.coords t) ((dat5 V c).after 2 t) = _
  rw [after5_2]
  unfold out5_2
  rw [View.canon_unit_zero hz]
  simp only [View.ld_unit_zero (S := S10000x16) hz, View.ld_unit_zero (S := S16) hz1]
  obtain ⟨-, -, -, e4, e5⟩ := idx_facts t
  funext y
  show k5_pay1 (F := Ideal) (iblk5 V c 0 t) (iblk5 V c 1 t) y
    = bias (V c main_v78) (V c main_arg8) (((cfg5.win 2).blk t).view.emb y)
  refine (pay_apply (iblk5 V c 0 t) (iblk5 V c 1 t) y).trans ?_
  unfold bias
  have a0 : ((((cfg5.win 2).blk t).view.emb y) 0).val = t.val * 10000 + (y 0).val := by
    show win5_2.index t 0 * 10000 + 1 * (y 0).val = _; rw [e4]; omega
  have a1 : ((((cfg5.win 2).blk t).view.emb y) 1).val = (y 1).val := by
    show win5_2.index t 1 * 16 + 1 * (y 1).val = _; rw [e5]; omega
  rw [ablk_apply V c t y (((cfg5.win 2).blk t).view.emb y) a0 a1,
    bblk_apply V c t (ix1 ⟨(y 1).val, (y 1).isLt⟩) (bcol (((cfg5.win 2).blk t).view.emb y)) a1]

/-- An index of the result array is in point `t`'s block iff each coordinate is in the block's range. -/
theorem mem_blk (t : Fin cfg5.N) (i : S100000x16.Idx) :
    i ∈ ((cfg5.win 2).blk t).view.set ↔ ∀ a : Fin 2, win5_2.index t a * S10000x16.size a ≤ (i a).val ∧ (i a).val < win5_2.index t a * S10000x16.size a + S10000x16.size a := by
  show i ∈ ((View.whole main_v79).slice (win5_2.rect t)).set ↔ _
  rw [View.set_slice_whole, Rect.mem_set_unit]
  exact Iff.rfl

/-- Row r of the result lies in the block of point r / 10000. -/
theorem cover (i : S100000x16.Idx) : ∃ t : Fin cfg5.N, (cfg5.win 2).flush t = true ∧ i ∈ ((cfg5.win 2).blk t).view.set := by
  have hi0 : (i 0).val < 100000 := (i 0).isLt
  have hi1 : (i 1).val < 16 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨-, -, -, e4, e5⟩ := idx_facts t
  refine ⟨t, flush5_2 t, ?_⟩
  rw [mem_blk]
  intro a
  match a with
  | ⟨0, _⟩ => show win5_2.index t 0 * 10000 ≤ (i 0).val ∧ (i 0).val < win5_2.index t 0 * 10000 + 10000; rw [e4, ht]; omega
  | ⟨1, _⟩ => show win5_2.index t 1 * 16 ≤ (i 1).val ∧ (i 1).val < win5_2.index t 1 * 16 + 16; rw [e5]; omega

/-- After the ten points the result array is `bias` of the two arrays the region found. -/
theorem final (c : Dev nD) : (dat5 V c).arrAt 2 cfg5.N = bias (V c main_v78) (V c main_arg8) :=
  (dat5 V c).arrAt_eq_of_cover 2 (bias (V c main_v78) (V c main_arg8)) (fun t _ => flushed_eq V c t) cover

end Cert.KernelIdeal.Bias3

end
-- ==== Proof.Layers.lean ====
/-
  The kernel's result as ONE function of its arguments. Segment by segment: a dense product's output array is the
  matrix product of its two operands (the six regions' closed forms), an aggregation is the host's gather, scale and
  scatter-add of that product, an epilogue adds the bias (and cuts at zero). Composed over the three layers, with each
  argument and each edge array read where it was last written, the result array after the sixth region is
  `model` of the nine arguments.
-/
import proofs.«175924_j19275813224530_1_alg».proof.Proof.Fold
import proofs.«175924_j19275813224530_1_alg».proof.Proof.Dense1
import proofs.«175924_j19275813224530_1_alg».proof.Proof.Dense2
import proofs.«175924_j19275813224530_1_alg».proof.Proof.Dense3
import proofs.«175924_j19275813224530_1_alg».proof.Proof.Bias1
import proofs.«175924_j19275813224530_1_alg».proof.Proof.Bias2
import proofs.«175924_j19275813224530_1_alg».proof.Proof.Bias3

noncomputable section

namespace Cert.KernelIdeal.Layers

open Cert.KernelIdeal Cert.KernelIdeal.Gen Idealize.ShloMosaic Idealize.ShloMosaic.TcCoe Idealize.SL.Sem Idealize.ShloMosaic.StableHlo
open Idealize.ShloMosaic.Pipeline (Dat)

section Aggregation
variable {F : FTy → Type} [FloatOps F]

/-- One aggregation at width 64: every edge (s, d) carries row s of `H` (a negative s counted from the end), scaled by the
    edge's coefficient, and the scaled rows are summed into row d of a zero array. Kept as ONE function of the dense
    product, the two node lists and the coefficients: the kernel's host operations and the reference's are the same here. -/
def agg64 (H : (⟨S100000x64, .f32⟩ : BufTy).Contents (Elt F)) (R C : (⟨S1350000, .i32⟩ : BufTy).Contents (Elt F))
    (Nm : (⟨S1350000, .f32⟩ : BufTy).Contents (Elt F)) : (⟨S100000x64, .f32⟩ : BufTy).Contents (Elt F) :=
  Host.scatterAdd scatter_S100000x64_S1350000x1_S1350000x64_1_0_0_1
    (broadcastInDim S100000x64 ![] bcast_S_S100000x64 (constant S_ .f32 0x00000000#32))
    (broadcastInDim S1350000x1 ![0] bcast_S1350000_S1350000x1_0 C)
    (mulf (Host.gather gather_S100000x64_S1350000x1_S1350000x64_1_0_n_n_0_1_164 H
        (broadcastInDim S1350000x1 ![0] bcast_S1350000_S1350000x1_0
          (select (cmpi .slt R (broadcastInDim S1350000 ![] bcast_S_S1350000 (constantI S_ 32 0#32)))
            (addi R (broadcastInDim S1350000 ![] bcast_S_S1350000 (constantI S_ 32 100000#32))) R)))
      (broadcastInDim S1350000x64 ![0, 1] bcast_S1350000x1_S1350000x64_0_1
        (broadcastInDim S1350000x1 ![0] bcast_S1350000_S1350000x1_0 Nm)))

/-- One aggregation at width 16: every edge (s, d) carries row s of `H` (a negative s counted from the end), scaled by the
    edge's coefficient, and the scaled rows are summed into row d of a zero array. Kept as ONE function of the dense
    product, the two node lists and the coefficients: the kernel's host operations and the reference's are the same here. -/
def agg16 (H : (⟨S100000x16, .f32⟩ : BufTy).Contents (Elt F)) (R C : (⟨S1350000, .i32⟩ : BufTy).Contents (Elt F))
    (Nm : (⟨S1350000, .f32⟩ : BufTy).Contents (Elt F)) : (⟨S100000x16, .f32⟩ : BufTy).Contents (Elt F) :=
  Host.scatterAdd scatter_S100000x16_S1350000x1_S1350000x16_1_0_0_1
    (broadcastInDim S100000x16 ![] bcast_S_S100000x16 (constant S_ .f32 0x00000000#32))
    (broadcastInDim S1350000x1 ![0] bcast_S1350000_S1350000x1_0 C)
    (mulf (Host.gather gather_S100000x16_S1350000x1_S1350000x16_1_0_n_n_0_1_116 H
        (broadcastInDim S1350000x1 ![0] bcast_S1350000_S1350000x1_0
          (select (cmpi .slt R (broadcastInDim S1350000 ![] bcast_S_S1350000 (constantI S_ 32 0#32)))
            (addi R (broadcastInDim S1350000 ![] bcast_S_S1350000 (constantI S_ 32 100000#32))) R)))
      (broadcastInDim S1350000x16 ![0, 1] bcast_S1350000x1_S1350000x16_0_1
        (broadcastInDim S1350000x1 ![0] bcast_S1350000_S1350000x1_0 Nm)))

variable (m : (ℓ : Loc nD τ sig) → Buf (Elt F) ℓ) (ρ : Dev nD → PrngReg)

/-- The three aggregations are the host operations between the regions, applied to the dense product just written
    and to the edge arrays as they stand there. -/
theorem W7_v48 (c : Dev nD) : W7 m ρ c (Proc.devRef .tc main_v48)
    = agg64 (W6 m ρ c (Proc.devRef .tc main_v35)) (W6 m ρ c (Proc.devRef .tc main_v3)) (W6 m ρ c (Proc.devRef .tc main_v6)) (W6 m ρ c (Proc.devRef .tc main_v34)) := by
  show StableHlo.after hostOps1 (W6 m ρ c) (Proc.devRef .tc main_v48) = _
  after_results_simp
  rfl

theorem W10_v63 (c : Dev nD) : W10 m ρ c (Proc.devRef .tc main_v63)
    = agg64 (W9 m ρ c (Proc.devRef .tc main_v50)) (W9 m ρ c (Proc.devRef .tc main_v3)) (W9 m ρ c (Proc.devRef .tc main_v6)) (W9 m ρ c (Proc.devRef .tc main_v34)) := by
  show StableHlo.after hostOps3 (W9 m ρ c) (Proc.devRef .tc main_v63) = _
  after_results_simp
  rfl

theorem W13_v78 (c : Dev nD) : W13 m ρ c (Proc.devRef .tc main_v78)
    = agg16 (W12 m ρ c (Proc.devRef .tc main_v65)) (W12 m ρ c (Proc.devRef .tc main_v3)) (W12 m ρ c (Proc.devRef .tc main_v6)) (W12 m ρ c (Proc.devRef .tc main_v34)) := by
  show StableHlo.after hostOps5 (W12 m ρ c) (Proc.devRef .tc main_v78) = _
  after_results_simp
  rfl

end Aggregation

/-- The three-layer network on the extended reals: dense product, aggregation over the edges, bias (and the cut at
    zero after the first two layers). The edge arrays are the reference's own stages of the edge list and weights. -/
def model (x0 : S100000x128.Idx → EReal) (x1 : (⟨S2x1250000, .i32⟩ : BufTy).Contents (Elt Ideal)) (x2 : S1250000.Idx → EReal)
    (x3 : S128x64.Idx → EReal) (x4 : S64.Idx → EReal) (x5 : S64x64.Idx → EReal) (x6 : S64.Idx → EReal)
    (x7 : S64x16.Idx → EReal) (x8 : S16.Idx → EReal) : S100000x16.Idx → EReal :=
  Bias3.bias (agg16 (F := Ideal) (Dense3.prod (Bias2.biasRelu (agg64 (F := Ideal) (Dense2.prod (Bias1.biasRelu (agg64 (F := Ideal) (Dense1.prod x0 x3)
      (Cert.ReferenceIdeal.Read.val_main_v3 (F := Ideal) x1) (Cert.ReferenceIdeal.Read.val_main_v6 (F := Ideal) x1) (Cert.ReferenceIdeal.Read.val_main_v34 (F := Ideal) x1 x2)) x4) x5)
      (Cert.ReferenceIdeal.Read.val_main_v3 (F := Ideal) x1) (Cert.ReferenceIdeal.Read.val_main_v6 (F := Ideal) x1) (Cert.ReferenceIdeal.Read.val_main_v34 (F := Ideal) x1 x2)) x6) x7)
      (Cert.ReferenceIdeal.Read.val_main_v3 (F := Ideal) x1) (Cert.ReferenceIdeal.Read.val_main_v6 (F := Ideal) x1) (Cert.ReferenceIdeal.Read.val_main_v34 (F := Ideal) x1 x2)) x8

variable (m : (ℓ : Loc nD τ sig) → Buf (Elt Ideal) ℓ) (ρ : Dev nD → PrngReg)

/-! ## The six regions' output arrays -/

theorem W6_v35 (c : Dev nD) : W6 m ρ c (Proc.devRef .tc main_v35) = Dense1.prod (m ((c : Thread nD τ).loc main_arg0)) (m ((c : Thread nD τ).loc main_arg3)) := by
  refine (W6_arr m ρ c 2).trans ((Dense1.final (V5 m ρ) c).trans ?_)
  show Dense1.prod (W5 m ρ c (Proc.devRef .tc main_arg0)) (W5 m ρ c (Proc.devRef .tc main_arg3)) = _
  rw [Fold.W5_arg0, Fold.W5_arg3]

theorem W8_v49 (c : Dev nD) : W8 m ρ c (Proc.devRef .tc main_v49) = Bias1.biasRelu (W7 m ρ c (Proc.devRef .tc main_v48)) (m ((c : Thread nD τ).loc main_arg4)) := by
  refine (W8_arr m ρ c 2).trans ((Bias1.final (V7 m ρ) c).trans ?_)
  show Bias1.biasRelu (W7 m ρ c (Proc.devRef .tc main_v48)) (W7 m ρ c (Proc.devRef .tc main_arg4)) = _
  rw [Fold.W7_arg4]

theorem W9_v50 (c : Dev nD) : W9 m ρ c (Proc.devRef .tc main_v50) = Dense2.prod (W8 m ρ c (Proc.devRef .tc main_v49)) (m ((c : Thread nD τ).loc main_arg5)) := by
  refine (W9_arr m ρ c 2).trans ((Dense2.final (V8 m ρ) c).trans ?_)
  show Dense2.prod (W8 m ρ c (Proc.devRef .tc main_v49)) (W8 m ρ c (Proc.devRef .tc main_arg5)) = _
  rw [Fold.W8_arg5]

theorem W11_v64 (c : Dev nD) : W11 m ρ c (Proc.devRef .tc main_v64) = Bias2.biasRelu (W10 m ρ c (Proc.devRef .tc main_v63)) (m ((c : Thread nD τ).loc main_arg6)) := by
  refine (W11_arr m ρ c 2).trans ((Bias2.final (V10 m ρ) c).trans ?_)
  show Bias2.biasRelu (W10 m ρ c (Proc.devRef .tc main_v63)) (W10 m ρ c (Proc.devRef .tc main_arg6)) = _
  rw [Fold.W10_arg6]

theorem W12_v65 (c : Dev nD) : W12 m ρ c (Proc.devRef .tc main_v65) = Dense3.prod (W11 m ρ c (Proc.devRef .tc main_v64)) (m ((c : Thread nD τ).loc main_arg7)) := by
  refine (W12_arr m ρ c 2).trans ((Dense3.final (V11 m ρ) c).trans ?_)
  show Dense3.prod (W11 m ρ c (Proc.devRef .tc main_v64)) (W11 m ρ c (Proc.devRef .tc main_arg7)) = _
  rw [Fold.W11_arg7]

theorem W14_v79 (c : Dev nD) : W14 m ρ c (Proc.devRef .tc main_v79) = Bias3.bias (W13 m ρ c (Proc.devRef .tc main_v78)) (m ((c : Thread nD τ).loc main_arg8)) := by
  refine (W14_arr m ρ c 2).trans ((Bias3.final (V13 m ρ) c).trans ?_)
  show Bias3.bias (W13 m ρ c (Proc.devRef .tc main_v78)) (W13 m ρ c (Proc.devRef .tc main_arg8)) = _
  rw [Fold.W13_arg8]

/-! ## The result array after the sixth region -/

/-- The result buffer ends at `model` of the nine arguments as launched. -/
theorem value (c : Dev nD) : W14 m ρ c (Proc.devRef .tc main_v79)
    = model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W14_v79, W13_v78, W12_v65, W11_v64, W10_v63, W9_v50, W8_v49, W7_v48, W6_v35,
    Fold.W12_v3, Fold.W12_v6, Fold.W12_v34, Fold.W9_v3, Fold.W9_v6, Fold.W9_v34, Fold.W6_v3, Fold.W6_v6, Fold.W6_v34,
    Fold.W5_v3, Fold.W5_v6, Fold.W5_v34]
  rfl

end Cert.KernelIdeal.Layers

end
-- ==== Proof.RefValue.lean ====
/-
  The reference's result as the same function of its arguments. The generated stages of the reference are read one
  layer at a time: its dot_general is the matrix product (a sum of products over the shared coordinate), its
  gather / scale / scatter-add is the aggregation, its two broadcasts of the bias followed by an add (and a maximum with
  a broadcast zero) are the epilogue. Composed, the reference's result is `model` of the nine arguments.
-/
import proofs.«175924_j19275813224530_1_alg».proof.Proof.Layers

noncomputable section

namespace Cert.ReferenceIdeal.RefValue

open Cert.ReferenceIdeal Cert.ReferenceIdeal.Gen Cert.ReferenceIdeal.Read Idealize.ShloMosaic Idealize.ShloMosaic.TcCoe Idealize.SL.Sem

/-- The reference's last stage is the three-layer network of its nine arguments. -/
theorem val_eq_model (x0 : (⟨S100000x128, .f32⟩ : BufTy).Contents (Elt Ideal)) (x1 : (⟨S2x1250000, .i32⟩ : BufTy).Contents (Elt Ideal))
    (x2 : (⟨S1250000, .f32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x16, .f32⟩ : BufTy).Contents (Elt Ideal))
    (x8 : (⟨S16, .f32⟩ : BufTy).Contents (Elt Ideal)) :
    val_main_v87 (F := Ideal) x0 x1 x2 x3 x4 x5 x6 x7 x8 = Cert.KernelIdeal.Layers.model x0 x1 x2 x3 x4 x5 x6 x7 x8 := by
  -- layer 1
  have e35 : val_main_v35 (F := Ideal) x0 x3 = Cert.KernelIdeal.Dense1.prod x0 x3 := funext fun i => val_main_v35_apply x0 x3 i
  have e48 : val_main_v48 (F := Ideal) x0 x1 x2 x3 = Cert.KernelIdeal.Layers.agg64 (F := Ideal) (val_main_v35 (F := Ideal) x0 x3) (val_main_v3 (F := Ideal) x1) (val_main_v6 (F := Ideal) x1) (val_main_v34 (F := Ideal) x1 x2) := rfl
  have e52 : val_main_v52 (F := Ideal) x0 x1 x2 x3 x4 = Cert.KernelIdeal.Bias1.biasRelu (val_main_v48 (F := Ideal) x0 x1 x2 x3) x4 := funext fun i => by
    have hidx : idx_main_v49 (idx_main_v50 i) = Cert.KernelIdeal.Bias1.bcol i := funext fun a => match a with | ⟨0, _⟩ => rfl
    rw [val_main_v52_apply, val_main_v51_apply, val_main_v50_apply, val_main_v49_apply, val_main_call2_v0_apply, val_main_call2_cst_apply, hidx]
    rfl
  -- layer 2
  have e53 : val_main_v53 (F := Ideal) x0 x1 x2 x3 x4 x5 = Cert.KernelIdeal.Dense2.prod (val_main_v52 (F := Ideal) x0 x1 x2 x3 x4) x5 := funext fun i => val_main_v53_apply x0 x1 x2 x3 x4 x5 i
  have e66 : val_main_v66 (F := Ideal) x0 x1 x2 x3 x4 x5 = Cert.KernelIdeal.Layers.agg64 (F := Ideal) (val_main_v53 (F := Ideal) x0 x1 x2 x3 x4 x5) (val_main_v3 (F := Ideal) x1) (val_main_v6 (F := Ideal) x1) (val_main_v34 (F := Ideal) x1 x2) := rfl
  have e70 : val_main_v70 (F := Ideal) x0 x1 x2 x3 x4 x5 x6 = Cert.KernelIdeal.Bias2.biasRelu (val_main_v66 (F := Ideal) x0 x1 x2 x3 x4 x5) x6 := funext fun i => by
    have hidx : idx_main_v67 (idx_main_v68 i) = Cert.KernelIdeal.Bias2.bcol i := funext fun a => match a with | ⟨0, _⟩ => rfl
    rw [val_main_v70_apply, val_main_v69_apply, val_main_v68_apply, val_main_v67_apply, val_main_call3_v0_apply, val_main_call3_cst_apply, hidx]
    rfl
  -- layer 3
  have e71 : val_main_v71 (F := Ideal) x0 x1 x2 x3 x4 x5 x6 x7 = Cert.KernelIdeal.Dense3.prod (val_main_v70 (F := Ideal) x0 x1 x2 x3 x4 x5 x6) x7 := funext fun i => val_main_v71_apply x0 x1 x2 x3 x4 x5 x6 x7 i
  have e84 : val_main_v84 (F := Ideal) x0 x1 x2 x3 x4 x5 x6 x7 = Cert.KernelIdeal.Layers.agg16 (F := Ideal) (val_main_v71 (F := Ideal) x0 x1 x2 x3 x4 x5 x6 x7) (val_main_v3 (F := Ideal) x1) (val_main_v6 (F := Ideal) x1) (val_main_v34 (F := Ideal) x1 x2) := rfl
  have e87 : val_main_v87 (F := Ideal) x0 x1 x2 x3 x4 x5 x6 x7 x8 = Cert.KernelIdeal.Bias3.bias (val_main_v84 (F := Ideal) x0 x1 x2 x3 x4 x5 x6 x7) x8 := funext fun i => by
    have hidx : idx_main_v85 (idx_main_v86 i) = Cert.KernelIdeal.Bias3.bcol i := funext fun a => match a with | ⟨0, _⟩ => rfl
    rw [val_main_v87_apply, val_main_v86_apply, val_main_v85_apply, hidx]
    rfl
  rw [e87, e84, e71, e70, e66, e53, e52, e48, e35]
  rfl

end Cert.ReferenceIdeal.RefValue

end
-- ==== Proof.lean ====
/-
  The certificate of a three-layer graph convolution against its jnp reference, on the extended reals.
  Kernel: per layer a dense product X · W in a region of ten row blocks (operands rounded to bf16, the identity here,
  accumulated from zero), the host's gather of the product's rows along the edges, scaling by the edge coefficients and
  scatter-add into the target rows, and a region that adds the bias and, after the first two layers, cuts at zero.
  Reference: the same with the product as a host dot_general and the epilogue as host broadcasts, add and maximum.
  Both are the one function `model` of the nine arguments (Layers.value for the kernel's run, RefValue.val_eq_model for
  the reference's): a block product is the matching rows of the whole product, a sum of products over the shared
  coordinate on both sides, and the host operations between the regions are the reference's own. No law used needs
  finiteness, so the precondition is not opened. The pass that idealizes the kernel rewrote nothing.
-/
import proofs.«175924_j19275813224530_1_alg».proof.Defs
import proofs.«175924_j19275813224530_1_alg».proof.Proof.Gen.Kernel
import proofs.«175924_j19275813224530_1_alg».proof.Proof.Gen.Kernel.Skeleton
import proofs.«175924_j19275813224530_1_alg».proof.Proof.Gen.Kernel.Launch
import proofs.«175924_j19275813224530_1_alg».proof.Proof.Gen.Kernel.Points
import proofs.«175924_j19275813224530_1_alg».proof.Proof.Gen.Kernel.Frame
import proofs.«175924_j19275813224530_1_alg».proof.Proof.Gen.KernelIdeal
import proofs.«175924_j19275813224530_1_alg».proof.Proof.Gen.KernelIdeal.Skeleton
import proofs.«175924_j19275813224530_1_alg».proof.Proof.Gen.KernelIdeal.Launch
import proofs.«175924_j19275813224530_1_alg».proof.Proof.Gen.KernelIdeal.Points
import proofs.«175924_j19275813224530_1_alg».proof.Proof.Gen.KernelIdeal.Frame
import proofs.«175924_j19275813224530_1_alg».proof.Proof.Gen.ReferenceIdeal
import proofs.«175924_j19275813224530_1_alg».proof.Proof.Gen.ReferenceIdeal.Run
import proofs.«175924_j19275813224530_1_alg».proof.Proof.Gen.ReferenceIdeal.Read
import proofs.«175924_j19275813224530_1_alg».proof.Proof.Gen.Pre_finite_inputs
import proofs.«175924_j19275813224530_1_alg».proof.Proof.KernelRun
import proofs.«175924_j19275813224530_1_alg».proof.Proof.Layers
import proofs.«175924_j19275813224530_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the result array at `model` of those arguments:
    the kernel's run leaves the fold's value there, which is `model` (Layers.value); the reference's run leaves its
    composed term, whose last stage is `model` (RefValue.val_eq_model). -/
theorem algebraic : Cert.algebraic_KernelIdeal_ReferenceIdeal := by
  intro m ρ m' ρ' _ hagree
  refine ⟨fun c => Cert.KernelIdeal.Gen.W14 m ρ c (Proc.devRef .tc Cert.KernelIdeal.main_v79), Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v87_eq, Cert.ReferenceIdeal.RefValue.val_eq_model, h0, h1, h2, h3, h4, h5, h6, h7, h8]
  exact (Cert.KernelIdeal.Layers.value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
